-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S3x128x128 : Shape := ⟨3, ![3, 128, 128]⟩
abbrev S128 : Shape := ⟨1, ![128]⟩
abbrev S2x640000 : Shape := ⟨2, ![2, 640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S40000x128 .f32) (main_arg1 : FVec F S640000 .f32) (main_arg2 : FVec F S3x128x128 .f32) (main_arg3 : FVec F S128 .f32) (main_arg4 : FVec F S128 .f32) (main_arg5 : FVec F S128 .f32) (main_arg6 : IVec S2x640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S40000x128 : Shape := ⟨2, ![40000, 128]⟩
abbrev S640000 : Shape := ⟨1, ![640000]⟩
abbrev S3x128x128 : Shape := ⟨3, ![3, 128, 128]⟩
abbrev S128 : Shape := ⟨1, ![128]⟩
abbrev S2x640000 : Shape := ⟨2, ![2, 640000]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S4000x128 : Shape := ⟨2, ![4000, 128]⟩
abbrev S1x128x128 : Shape := ⟨3, ![1, 128, 128]⟩
abbrev S128x128 : Shape := ⟨2, ![128, 128]⟩
abbrev S1x128 : Shape := ⟨2, ![1, 128]⟩
abbrev S4000 : Shape := ⟨1, ![4000]⟩
abbrev S4000x1 : Shape := ⟨2, ![4000, 1]⟩

abbrev nBuf : Space → Nat
  | .hbm => 91
  | .vmem => 12
  | .smem => 0
  | _ => 0

abbrev bufTy : (tb : Table) → Fin (tcTables nBuf tb) → BufTy
  | .hbm, ⟨0, _⟩ => ⟨S40000x128, .f32⟩
  | .hbm, ⟨1, _⟩ => ⟨S640000, .f32⟩
  | .hbm, ⟨2, _⟩ => ⟨S3x128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S40000, .f32⟩
  | .hbm, ⟨13, _⟩ => ⟨S640000x1, .i32⟩
  | .hbm, ⟨14, _⟩ => ⟨S40000, .f32⟩
  | .hbm, ⟨15, _⟩ => ⟨S_, .f32⟩
  | .hbm, ⟨16, _⟩ => ⟨S40000, .f32⟩
  | .hbm, ⟨17, _⟩ => ⟨S40000, .i1⟩
  | .hbm, ⟨18, _⟩ => ⟨S40000, .f32⟩
  | .hbm, ⟨19, _⟩ => ⟨S_, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .f32⟩
  | .hbm, ⟨33, _⟩ => ⟨S640000, .f32⟩
  | .hbm, ⟨34, _⟩ => ⟨S640000, .f32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S_, .f32⟩
  | .hbm, ⟨63, _⟩ => ⟨S40000x128, .f32⟩
  | .hbm, ⟨64, _⟩ => ⟨S40000x128, .f32⟩
  | .hbm, ⟨65, _⟩ => ⟨S40000x128, .f32⟩
  | .hbm, ⟨66, _⟩ => ⟨S640000x1, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S40000x128, .f32⟩
  | .hbm, ⟨80, _⟩ => ⟨S640000x1, .i32⟩
  | .hbm, ⟨81, _⟩ => ⟨S40000x128, .f32⟩
  | .hbm, ⟨82, _⟩ => ⟨S_, .f32⟩
  | .hbm, ⟨83, _⟩ => ⟨S40000x128, .f32⟩
  | .hbm, ⟨84, _⟩ => ⟨S40000x128, .f32⟩
  | .hbm, ⟨85, _⟩ => ⟨S40000x128, .f32⟩
  | .hbm, ⟨86, _⟩ => ⟨S_, .f32⟩
  | .hbm, ⟨87, _⟩ => ⟨S40000x128, .f32⟩
  | .hbm, ⟨88, _⟩ => ⟨S40000x128, .f32⟩
  | .hbm, ⟨89, _⟩ => ⟨S40000x128, .f32⟩
  | .hbm, ⟨90, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S3x128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S40000x128.size a
  hwx0_2 : ∀ i : grid0.Coords, EltTy.bits .f32 = 32 ∨ (Rect.block (s := S40000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S40000x128.size a
  hwx0_7 : ∀ i : grid0.Coords, EltTy.bits .f32 = 32 ∨ (Rect.block (s := S40000x128) S4000x128.size (cc0_transform_7 i) (hinb0_7 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S3x128x128 : Shape := ⟨3, ![3, 128, 128]⟩
abbrev S128 : Shape := ⟨1, ![128]⟩
abbrev S2x640000 : Shape := ⟨2, ![2, 640000]⟩
abbrev S1x640000 : Shape := ⟨2, ![1, 640000]⟩
abbrev S_ : Shape := ⟨0, ![]⟩
abbrev S40000 : Shape := ⟨1, ![40000]⟩
abbrev S640000x1 : Shape := ⟨2, ![640000, 1]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S40000x1 : Shape := ⟨2, ![40000, 1]⟩

abbrev nBuf : Space → Nat
  | .hbm => 151
  | .vmem => 0
  | .smem => 0
  | _ => 0

abbrev hbmTy0_0 (i : Nat) : BufTy := match i % 128 with
  | 0 => ⟨S40000x128, .f32⟩
  | 1 => ⟨S640000, .f32⟩
  | 2 => ⟨S3x128x128, .f32⟩
  | 3 => ⟨S128, .f32⟩
  | 4 => ⟨S128, .f32⟩
  | 5 => ⟨S128, .f32⟩
  | 6 => ⟨S2x640000, .i32⟩
  | 7 => ⟨S1x640000, .i32⟩
  | 8 => ⟨S640000, .i32⟩
  | 9 => ⟨S1x640000, .i32⟩
  | 10 => ⟨S640000, .i32⟩
  | 11 => ⟨S_, .f32⟩
  | 12 => ⟨S40000, .f32⟩
  | 13 => ⟨S640000x1, .i32⟩
  | 14 => ⟨S40000, .f32⟩
  | 15 => ⟨S_, .f32⟩
  | 16 => ⟨S40000, .f32⟩
  | 17 => ⟨S40000, .i1⟩
  | 18 => ⟨S40000, .f32⟩
  | 19 => ⟨S_, .f32⟩
  | 20 => ⟨S_, .f32⟩
  | 21 => ⟨S40000, .f32⟩
  | 22 => ⟨S40000, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000, .f32⟩
  | 32 => ⟨S_, .f32⟩
  | 33 => ⟨S640000, .f32⟩
  | 34 => ⟨S640000, .f32⟩
  | 35 => ⟨S640000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000, .f32⟩
  | 45 => ⟨S640000, .f32⟩
  | 46 => ⟨S1x128x128, .f32⟩
  | 47 => ⟨S128x128, .f32⟩
  | 48 => ⟨S40000x128, .f32⟩
  | 49 => ⟨S640000x1, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x128, .f32⟩
  | 60 => ⟨S640000x128, .f32⟩
  | 61 => ⟨S_, .f32⟩
  | 62 => ⟨S40000x128, .f32⟩
  | 63 => ⟨S640000x1, .i32⟩
  | 64 => ⟨S40000x128, .f32⟩
  | 65 => ⟨S_, .f32⟩
  | 66 => ⟨S40000x128, .f32⟩
  | 67 => ⟨S40000x128, .f32⟩
  | 68 => ⟨S40000x128, .f32⟩
  | 69 => ⟨S1x128x128, .f32⟩
  | 70 => ⟨S128x128, .f32⟩
  | 71 => ⟨S40000x128, .f32⟩
  | 72 => ⟨S40000x128, .f32⟩
  | 73 => ⟨S640000x1, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x128, .f32⟩
  | 83 => ⟨S640000x128, .f32⟩
  | 84 => ⟨S640000x128, .f32⟩
  | 85 => ⟨S_, .f32⟩
  | 86 => ⟨S40000x128, .f32⟩
  | 87 => ⟨S640000x1, .i32⟩
  | 88 => ⟨S40000x128, .f32⟩
  | 89 => ⟨S_, .f32⟩
  | 90 => ⟨S40000x128, .f32⟩
  | 91 => ⟨S40000x128, .f32⟩
  | 92 => ⟨S40000x128, .f32⟩
  | 93 => ⟨S_, .f32⟩
  | 94 => ⟨S40000x128, .f32⟩
  | 95 => ⟨S40000x128, .f32⟩
  | 96 => ⟨S40000x128, .f32⟩
  | 97 => ⟨S1x128x128, .f32⟩
  | 98 => ⟨S128x128, .f32⟩
  | 99 => ⟨S40000x128, .f32⟩
  | 100 => ⟨S40000x128, .f32⟩
  | 101 => ⟨S1x128, .f32⟩
  | 102 => ⟨S40000x128, .f32⟩
  | 103 => ⟨S40000x128, .f32⟩
  | 104 => ⟨S_, .f32⟩
  | 105 => ⟨S40000, .f32⟩
  | 106 => ⟨S40000x1, .f32⟩
  | 107 => ⟨S_, .f32⟩
  | 108 => ⟨S40000x1, .f32⟩
  | 109 => ⟨S40000x1, .f32⟩
  | 110 => ⟨S_, .i32⟩
  | 111 => ⟨S_, .f32⟩
  | 112 => ⟨S40000, .f32⟩
  | 113 => ⟨S40000x1, .f32⟩
  | 114 => ⟨S_, .f32⟩
  | 115 => ⟨S40000x1, .f32⟩
  | 116 => ⟨S40000x1, .f32⟩
  | 117 => ⟨S40000x128, .f32⟩
  | 118 => ⟨S40000x128, .f32⟩
  | 119 => ⟨S40000x128, .f32⟩
  | 120 => ⟨S_, .f32⟩
  | 121 => ⟨S_, .f32⟩
  | 122 => ⟨S_, .f32⟩
  | 123 => ⟨S_, .f32⟩
  | 124 => ⟨S40000, .f32⟩
  | 125 => ⟨S40000x1, .f32⟩
  | 126 => ⟨S40000x1, .f32⟩
  | 127 => ⟨S40000x1, .f32⟩
  | _ => ⟨S40000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S40000x1, .f32⟩
  | 5 => ⟨S40000x1, .f32⟩
  | 6 => ⟨S40000x128, .f32⟩
  | 7 => ⟨S40000x128, .f32⟩
  | 8 => ⟨S_, .f32⟩
  | 9 => ⟨S40000x1, .f32⟩
  | 10 => ⟨S40000x1, .f32⟩
  | 11 => ⟨S40000x1, .f32⟩
  | 12 => ⟨S40000x128, .f32⟩
  | 13 => ⟨S40000x128, .f32⟩
  | 14 => ⟨S1x128, .f32⟩
  | 15 => ⟨S40000x128, .f32⟩
  | 16 => ⟨S40000x128, .f32⟩
  | 17 => ⟨S1x128, .f32⟩
  | 18 => ⟨S40000x128, .f32⟩
  | 19 => ⟨S40000x128, .f32⟩
  | 20 => ⟨S_, .f32⟩
  | 21 => ⟨S40000x128, .f32⟩
  | 22 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_c_17 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_v12 : Ref sig .tc := ⟨.hbm, 127, rfl⟩
abbrev main_call1_cst_3 : Ref sig .tc := ⟨.hbm, 128, rfl⟩
abbrev main_call1_v13 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_18 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call2_cst : Ref sig .tc := ⟨.hbm, 148, rfl⟩
abbrev main_call2_v0 : Ref sig .tc := ⟨.hbm, 149, rfl⟩
abbrev main_v96 : Ref sig .tc := ⟨.hbm, 150, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S640000_S640000x1_0 : S640000.BroadcastsInDim S640000x1 (![0] : Fin 1 → Fin S640000x1.rank)
  bcast_S_S640000 : S_.BroadcastsInDim S640000 (![] : Fin 0 → Fin S640000.rank)
  slices_S3x128x128_S1x128x128_0_0_0 : S3x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Spec.lean ====
/-
  The function both programs compute, entry by entry, on the extended reals.

  Three feature matrices `x`, `t1`, `t2` (40000 rows of 128 features: a node's own features and two further
  Chebyshev terms of the graph Laplacian applied to them) are projected by the three 128×128 slabs of `W`, summed,
  and a bias is added: row `r`, channel `j` of that sum is `proj`. Each row is then normalised over its 128
  channels — centred at the row's mean, scaled by the inverse square root of the mean squared deviation plus a
  small constant —, scaled channel by channel by `γ`, shifted by `β`, and negative entries are replaced by zero:
  `normRelu`. Nothing here depends on how the rows are tiled or on the order in which a row's sums are taken.
-/
import Idealize.ShloMosaic.Lib.ValueIdx
import Idealize.ShloMosaic.PureOps.Ideal

noncomputable section

namespace Cert.ChebNorm

open Idealize.ShloMosaic Idealize.ShloMosaic.ValueIdx

/-- The number of channels, 128, as the f32 word both programs divide by. -/
abbrev chans : EReal := Ideal.ofBits .f32 0x43000000#32
/-- The small constant added to the variance, as the f32 word both programs spell. -/
abbrev tiny : EReal := Ideal.ofBits .f32 0x3727C5AC#32

/-- Row `r`, channel `j` of `x·W₀ + t1·W₁ + t2·W₂ + b`, the sums associated as both programs associate them. -/
def proj (x t1 t2 : (⟨2, ![40000, 128]⟩ : Shape).Idx → EReal) (W : (⟨3, ![3, 128, 128]⟩ : Shape).Idx → EReal)
    (b : (⟨1, ![128]⟩ : Shape).Idx → EReal) (r : Fin 40000) (j : Fin 128) : EReal :=
  (((∑ k : Fin 128, x (ix2 r k) * W (ix3 (0 : Fin 3) k j)) + ∑ k : Fin 128, t1 (ix2 r k) * W (ix3 (1 : Fin 3) k j))
      + ∑ k : Fin 128, t2 (ix2 r k) * W (ix3 (2 : Fin 3) k j)) + b (ix1 j)

/-- A row's mean over its 128 channels. -/
def rowMean (a : Fin 128 → EReal) : EReal := Ideal.div (∑ i : Fin 128, a i) chans

/-- A row's mean squared deviation from its mean. -/
def rowVar (a : Fin 128 → EReal) : EReal :=
  Ideal.div (∑ i : Fin 128, (a i - rowMean a) * (a i - rowMean a)) chans

/-- Channel `j` of the normalised, scaled, shifted and clipped row. -/
def normRelu (a γ β : Fin 128 → EReal) (j : Fin 128) : EReal :=
  max (((a j - rowMean a) * Ideal.rsqrt (rowVar a + tiny)) * γ j + β j) 0

/-- The whole result: entry `(r, j)` is channel `j` of the normalised row `r` of the projection. -/
def out (x t1 t2 : (⟨2, ![40000, 128]⟩ : Shape).Idx → EReal) (W : (⟨3, ![3, 128, 128]⟩ : Shape).Idx → EReal)
    (b γ β : (⟨1, ![128]⟩ : Shape).Idx → EReal) : (⟨2, ![40000, 128]⟩ : Shape).Idx → EReal := fun i =>
  normRelu (fun j => proj x t1 t2 W b (i 0) j) (fun j => γ (ix1 j)) (fun j => β (ix1 j)) (i 1)

theorem out_apply (x t1 t2 : (⟨2, ![40000, 128]⟩ : Shape).Idx → EReal) (W : (⟨3, ![3, 128, 128]⟩ : Shape).Idx → EReal)
    (b γ β : (⟨1, ![128]⟩ : Shape).Idx → EReal) (r : Fin 40000) (j : Fin 128) :
    out x t1 t2 W b γ β (ix2 r j)
      = normRelu (fun j' => proj x t1 t2 W b r j') (fun j' => γ (ix1 j')) (fun j' => β (ix1 j')) j := rfl

end Cert.ChebNorm

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.KernelPayload.lean ====
/-
  One block of rows through the kernel body, read entry by entry on the extended reals.

  The body loads a block of 4000 rows of each of the three feature matrices, the three 128×128 slabs of the weights
  and the three parameter vectors, and leaves in the output block: the three products summed plus the bias
  (`blockProj`), each row centred at its mean, scaled by the inverse square root of its mean squared deviation plus
  the small constant, scaled by `γ`, shifted by `β`, clipped at zero. Row `p` of the result depends on row `p` of the
  three feature blocks only, and is the row function of Spec.lean applied to that row of the projection.
-/
import proofs.«147673_j49864570306621_1_alg».proof.Proof.Gen.KernelIdeal.Value
import proofs.«147673_j49864570306621_1_alg».proof.Proof.Spec
import proofs.«147673_j49864570306621_1_alg».proof.Proof.LibPlainMatmul
import proofs.«147673_j49864570306621_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

variable (P0 P1 P2 : FVec Ideal S4000x128 .f32) (P3 P4 P5 : FVec Ideal S1x128x128 .f32) (P6 P7 P8 : FVec Ideal S128 .f32)

/-- Row `p`, channel `j` of the block's projection: the three products, summed as the body sums them, plus the bias. -/
def blockProj (p : Fin 4000) (j : Fin 128) : EReal :=
  (((∑ k : Fin 128, P0 (ix2 p k) * P3 (ix3 (0 : Fin 1) k j)) + ∑ k : Fin 128, P1 (ix2 p k) * P4 (ix3 (0 : Fin 1) k j))
      + ∑ k : Fin 128, P2 (ix2 p k) * P5 (ix3 (0 : Fin 1) k j)) + P6 (ix1 j)

/-- The block's projection as the body's vector operations spell it. -/
def accVec : FVec Ideal S4000x128 .f32 :=
  addf (addf (addf
      (matmul dot_S4000x128_S128x128_S4000x128_1_0_0_1_n_n none (truncf .bf16 P0 bitsLt_bf16_f32)
        (truncf .bf16 (shapeCast S128x128 P3 shapeCasts_S1x128x128_S128x128) bitsLt_bf16_f32) (constant S4000x128 .f32 0x00000000#32))
      (matmul dot_S4000x128_S128x128_S4000x128_1_0_0_1_n_n none
        (truncf .bf16 (shapeCast S4000x128 P1 shapeCasts_S4000x128_S4000x128) bitsLt_bf16_f32)
        (truncf .bf16 (shapeCast S128x128 P4 shapeCasts_S1x128x128_S128x128) bitsLt_bf16_f32) (constant S4000x128 .f32 0x00000000#32)))
      (matmul dot_S4000x128_S128x128_S4000x128_1_0_0_1_n_n none
        (truncf .bf16 (shapeCast S4000x128 P2 shapeCasts_S4000x128_S4000x128) bitsLt_bf16_f32)
        (truncf .bf16 (shapeCast S128x128 P5 shapeCasts_S1x128x128_S128x128) bitsLt_bf16_f32) (constant S4000x128 .f32 0x00000000#32)))
    (broadcastTo S4000x128 (shapeCast S1x128 P6 shapeCasts_S128_S1x128) broadcasts_S1x128_S4000x128)

/-- One product of a feature block with a weight slab, at `(p, j)`: a change of float format is the identity, the slab's
    unit leading axis is dropped, and the product into the zero matrix is the sum over the 128 input channels. -/
theorem product_apply (X : FVec Ideal S4000x128 .f32) (Wl : FVec Ideal S1x128x128 .f32) (p : Fin 4000) (j : Fin 128) :
    matmul dot_S4000x128_S128x128_S4000x128_1_0_0_1_n_n none (truncf .bf16 X bitsLt_bf16_f32)
        (truncf .bf16 (shapeCast S128x128 Wl shapeCasts_S1x128x128_S128x128) bitsLt_bf16_f32)
        (constant S4000x128 .f32 0x00000000#32) (ix2 p j)
      = ∑ k : Fin 128, X (ix2 p k) * Wl (ix3 (0 : Fin 1) k j) := by
  refine (Cert.PlainMatmul.plain_apply (M := 4000) (K := 128) (N := 128) (truncf .bf16 X bitsLt_bf16_f32)
    (truncf .bf16 (shapeCast S128x128 Wl shapeCasts_S1x128x128_S128x128) bitsLt_bf16_f32) p j).trans ?_
  refine Finset.sum_congr rfl fun k _ => ?_
  show X (ix2 p k) * shapeCast S128x128 Wl shapeCasts_S1x128x128_S128x128 (ix2 k j) = _
  rw [shapeCast_1ab_ab_apply Wl shapeCasts_S1x128x128_S128x128 k j]

/-- The body's spelling of the projection, at `(p, j)`. -/
theorem accVec_apply (p : Fin 4000) (j : Fin 128) :
    accVec P0 P1 P2 P3 P4 P5 P6 (ix2 p j) = blockProj P0 P1 P2 P3 P4 P5 P6 p j := by
  unfold accVec blockProj
  rw [shapeCast_self P1, shapeCast_self P2]
  show ((_ + _) + _) + _ = _
  rw [product_apply P0 P3 p j, product_apply P1 P4 p j, product_apply P2 P5 p j,
    broadcastTo_1b_ab_apply _ broadcasts_S1x128_S4000x128 p j, shapeCast_a_1a_apply P6 shapeCasts_S128_S1x128 0 j]

/-- A row's mean, as the body's vector operations spell it (sum along the row, kept as a column, divided by the
    channel count, spread back along the row), at `(p, j)`. -/
theorem meanVec_apply (A : FVec Ideal S4000x128 .f32) (p : Fin 4000) (j : Fin 128) :
    broadcastTo S4000x128 (divf (shapeCast S4000x1
        (multiReduction .add [1] S4000 A 0x00000000#32 reduces_S4000x128_S4000 (.inl rfl) rfl) shapeCasts_S4000_S4000x1)
        (broadcast S4000x1 (Scalar.ofBits (F := Ideal) .f32 0x43000000#32))) broadcasts_S4000x1_S4000x128 (ix2 p j)
      = Ideal.div (∑ j' : Fin 128, A (ix2 p j')) Cert.ChebNorm.chans := by
  rw [Cert.ColumnLayout.broadcastTo_a1_ab_apply _ broadcasts_S4000x1_S4000x128 p j]
  show Ideal.div (shapeCast S4000x1 (multiReduction .add [1] S4000 A 0x00000000#32 reduces_S4000x128_S4000 (.inl rfl) rfl)
    shapeCasts_S4000_S4000x1 (ix2 p (0 : Fin 1))) _ = _
  rw [Cert.ColumnLayout.shapeCast_a_a1_apply _ shapeCasts_S4000_S4000x1 p 0,
    Cert.ColumnLayout.rowSum_apply A reduces_S4000x128_S4000 (.inl rfl) rfl p]
  rfl

/-- The body's centred projection: the projection minus its row mean spread along the row. -/
theorem centred_eq : k0_pay2 (F := Ideal) P0 P1 P2 P3 P4 P5 P6
    = subf (accVec P0 P1 P2 P3 P4 P5 P6) (broadcastTo S4000x128 (divf (shapeCast S4000x1
        (multiReduction .add [1] S4000 (accVec P0 P1 P2 P3 P4 P5 P6) 0x00000000#32 reduces_S4000x128_S4000 (.inl rfl) rfl)
        shapeCasts_S4000_S4000x1) (broadcast S4000x1 (Scalar.ofBits (F := Ideal) .f32 0x43000000#32)))
        broadcasts_S4000x1_S4000x128) := rfl

/-- Entry `(p, j)` of the centred projection: the projection's entry minus its row's mean. -/
theorem centred_apply (p : Fin 4000) (j : Fin 128) :
    k0_pay2 (F := Ideal) P0 P1 P2 P3 P4 P5 P6 (ix2 p j)
      = blockProj P0 P1 P2 P3 P4 P5 P6 p j - Cert.ChebNorm.rowMean (fun j' => blockProj P0 P1 P2 P3 P4 P5 P6 p j') := by
  rw [centred_eq]
  show accVec P0 P1 P2 P3 P4 P5 P6 (ix2 p j) - _ = _
  rw [meanVec_apply, accVec_apply]
  unfold Cert.ChebNorm.rowMean
  rw [Finset.sum_congr rfl fun j' _ => accVec_apply P0 P1 P2 P3 P4 P5 P6 p j']

/-- THE BLOCK, ENTRY BY ENTRY: what the body leaves at `(p, j)` is channel `j` of the normalised, scaled, shifted and
    clipped row `p` of the block's projection. -/
theorem block_apply (p : Fin 4000) (j : Fin 128) :
    Value.E7 (F := Ideal) P0 P1 P2 P3 P4 P5 P6 P7 P8 (ix2 p j)
      = Cert.ChebNorm.normRelu (fun j' => blockProj P0 P1 P2 P3 P4 P5 P6 p j') (fun j' => P7 (ix1 j'))
          (fun j' => P8 (ix1 j')) j := by
  have h0 : Value.ix7_0 (ix2 p j) = ix2 p j := funext fun a => Fin.ext (by match a with | ⟨0, _⟩ => rfl | ⟨1, _⟩ => rfl)
  have h1 : Value.ix7_1 (ix2 p j) = ix1 p := funext fun a => Fin.ext (by match a with | ⟨0, _⟩ => rfl)
  have h2 : Value.ix7_2 (ix2 p j) = ix2 p (0 : Fin 1) := funext fun a => Fin.ext (by match a with | ⟨0, _⟩ => rfl | ⟨1, _⟩ => rfl)
  have h3 : Value.ix7_3 (ix2 p j) = ix1 j := funext fun a => Fin.ext (by match a with | ⟨0, _⟩ => rfl)
  have h4 : Value.ix7_4 (ix2 p j) = ix1 j := funext fun a => Fin.ext (by match a with | ⟨0, _⟩ => rfl)
  dsimp only [Value.E7]
  rw [h0, h1, h2, h3, h4, centred_apply,
    Cert.ColumnLayout.rowSum_apply _ reduces_S4000x128_S4000 (.inl rfl) rfl p]
  have hsq : (∑ j' : Fin 128, mulf (k0_pay2 (F := Ideal) P0 P1 P2 P3 P4 P5 P6) (k0_pay2 (F := Ideal) P0 P1 P2 P3 P4 P5 P6) (ix2 p j'))
      = ∑ i : Fin 128, (blockProj P0 P1 P2 P3 P4 P5 P6 p i - Cert.ChebNorm.rowMean (fun j' => blockProj P0 P1 P2 P3 P4 P5 P6 p j'))
          * (blockProj P0 P1 P2 P3 P4 P5 P6 p i - Cert.ChebNorm.rowMean (fun j' => blockProj P0 P1 P2 P3 P4 P5 P6 p j')) :=
    Finset.sum_congr rfl fun j' _ => by
      show k0_pay2 (F := Ideal) P0 P1 P2 P3 P4 P5 P6 (ix2 p j') * k0_pay2 (F := Ideal) P0 P1 P2 P3 P4 P5 P6 (ix2 p j') = _
      rw [centred_apply]
  rw [hsq]
  unfold Cert.ChebNorm.normRelu Cert.ChebNorm.rowVar
  show max _ (Ideal.ofBits .f32 0x00000000#32) = _
  rw [Ideal.ofBits_zero_f32]
  rfl

end Cert.KernelIdeal.BlockValue

end
-- ==== Proof.KernelBlocks.lean ====
/-
  One grid point: what the body leaves in the output block, and which rows of the arrays its blocks are.

  The grid has ten points; point `t` reads rows `4000·t … 4000·t + 3999` of the three feature matrices, the whole
  weights and the whole parameter vectors. The body leaves, at `(p, j)` of the output block, channel `j` of the
  normalised row `p` of the block's projection (`body_apply`); row `p` of a feature block is row `4000·t + p` of its
  array, and the weights' and the parameters' blocks are the whole arrays (the block-read lemmas).
-/
import proofs.«147673_j49864570306621_1_alg».proof.Proof.Gen.KernelIdeal.Value
import proofs.«147673_j49864570306621_1_alg».proof.Proof.KernelPayload
import proofs.«147673_j49864570306621_1_alg».proof.Proof.Spec
import Idealize.ShloMosaic.Lib.ValueIdx
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-! ## One point's block, entry by entry, over the loaded blocks as variables -/

theorem zero2 : (![0, 0] : Fin 2 → Nat) = fun _ => 0 := funext fun a => by fin_cases a <;> rfl
theorem zero1 : (![0] : Fin 1 → Nat) = fun _ => 0 := funext fun a => by fin_cases a <;> rfl

/-- Slab `l` of the weights, loaded as a `[1, 128, 128]` vector, reads at `(0, k, j)` the weights at `(l, k, j)`. -/
theorem slab_apply (x3 : Vec Ideal S3x128x128 .f32) (l : ℕ) (hl : l < 3)
    (inb : ∀ a, (![l, 0, 0] : Fin 3 → ℕ) a + S1x128x128.size a ≤ S3x128x128.size a) (k j : Fin 128) :
    View.ld x3 (Rect.unit (s := S3x128x128) ![l, 0, 0] S1x128x128.size inb) (ix3 (0 : Fin 1) k j)
      = x3 (ix3 (⟨l, hl⟩ : Fin 3) k j) := by
  show x3 ((Rect.unit (s := S3x128x128) ![l, 0, 0] S1x128x128.size inb).idx (ix3 (0 : Fin 1) k j)) = _
  refine congrArg x3 (funext fun ax => Fin.ext ?_)
  match ax with
  | ⟨0, _⟩ => show l + 1 * 0 = l; omega
  | ⟨1, _⟩ => show 0 + 1 * k.val = k.val; omega
  | ⟨2, _⟩ => show 0 + 1 * j.val = j.val; omega

/-- What the body leaves at `(p, j)` of the output block, from the seven staged blocks: channel `j` of the normalised
    row `p` of `x0·W₀ + x1·W₁ + x2·W₂ + b`. -/
theorem body_apply (x0 x1 x2 : Vec Ideal S4000x128 .f32) (x3 : Vec Ideal S3x128x128 .f32) (x4 x5 x6 : Vec Ideal S128 .f32)
    (p : Fin 4000) (j : Fin 128) :
    out0_7 (F := Ideal) x0 x1 x2 x3 x4 x5 x6 (ix2 p j)
      = Cert.ChebNorm.normRelu
          (fun j' => (((∑ k : Fin 128, x0 (ix2 p k) * x3 (ix3 (0 : Fin 3) k j'))
              + ∑ k : Fin 128, x1 (ix2 p k) * x3 (ix3 (1 : Fin 3) k j'))
              + ∑ k : Fin 128, x2 (ix2 p k) * x3 (ix3 (2 : Fin 3) k j')) + x4 (ix1 j'))
          (fun j' => x5 (ix1 j')) (fun j' => x6 (ix1 j')) j := by
  unfold out0_7
  rw [Value.canon7_eq, BlockValue.block_apply]
  unfold BlockValue.blockProj
  have l0 : ∀ (x : Vec Ideal S4000x128 .f32) (k : Fin 128), View.ld x r0_0 (ix2 p k) = x (ix2 p k) :=
    fun x k => congrFun (View.ld_unit_zero (S := S4000x128) zero2 _ x) _
  have l4 : ∀ (x : Vec Ideal S128 .f32) (j' : Fin 128), View.ld x r0_4 (ix1 j') = x (ix1 j') :=
    fun x j' => congrFun (View.ld_unit_zero (S := S128) zero1 _ x) _
  have a0 := l0 x0
  have a1 := l0 x1
  have a2 := l0 x2
  have a4 := l4 x4
  have a5 := l4 x5
  have a6 := l4 x6
  have s1 : ∀ k j' : Fin 128, View.ld x3 r0_1 (ix3 (0 : Fin 1) k j') = x3 (ix3 (0 : Fin 3) k j') :=
    fun k j' => slab_apply x3 0 (by omega) _ k j'
  have s2 : ∀ k j' : Fin 128, View.ld x3 r0_2 (ix3 (0 : Fin 1) k j') = x3 (ix3 (1 : Fin 3) k j') :=
    fun k j' => slab_apply x3 1 (by omega) _ k j'
  have s3 : ∀ k j' : Fin 128, View.ld x3 r0_3 (ix3 (0 : Fin 1) k j') = x3 (ix3 (2 : Fin 3) k j') :=
    fun k j' => slab_apply x3 2 (by omega) _ k j'
  simp only [a0, a1, a2, a4, a5, a6, s1, s2, s3]

/-! ## The ten points' blocks -/

variable (m : (ℓ : Loc nD τ sig) → Buf (Elt Ideal) ℓ) (ρ : Dev nD → PrngReg)

/-- The printed index maps, decided over the ten points: the three feature windows and the output window are at
    block row `t`, block column `0`; the weights and the three parameter vectors are read whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 10 := (N_0 : grid0.N = 10) ▸ t.isLt

/-- The row of the whole arrays that row `p` of point `t`'s blocks is. -/
def rowOf (t : Fin cfg0.N) (p : Fin 4000) : Fin 40000 :=
  ⟨t.val * 4000 + p.val, by have := point_lt t; have := p.isLt; omega⟩

/-! Each window's block at point `t`, read out of ANY contents `A` of the window's array: the element at block
    coordinates sits in the array at block index × block size + the coordinate, on each axis. -/

/-- Window 0 (the node features): row `p` of the block is row `4000·t + p` of the array. -/
theorem rows0_apply (t : Fin cfg0.N) (A : ((cfg0.win 0).blk t).view.ty.Contents (Elt Ideal)) (p : Fin 4000) (k : Fin 128) :
    ((cfg0.win 0).blk t).view.read (Elt Ideal) A (ix2 p k) = A (ix2 (rowOf t p) k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Window 1 (the first further term): the same rows. -/
theorem rows1_apply (t : Fin cfg0.N) (A : ((cfg0.win 1).blk t).view.ty.Contents (Elt Ideal)) (p : Fin 4000) (k : Fin 128) :
    ((cfg0.win 1).blk t).view.read (Elt Ideal) A (ix2 p k) = A (ix2 (rowOf t p) k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- Window 2 (the second further term): the same rows. -/
theorem rows2_apply (t : Fin cfg0.N) (A : ((cfg0.win 2).blk t).view.ty.Contents (Elt Ideal)) (p : Fin 4000) (k : Fin 128) :
    ((cfg0.win 2).blk t).view.read (Elt Ideal) A (ix2 p k) = A (ix2 (rowOf t p) k) := by
  obtain ⟨-, -, -, -, e0, e1, -⟩ := idx_facts t
  show A (((cfg0.win 2).blk t).view.emb (ix2 p k)) = _
  refine congrArg A (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

/-- Window 7 (the result): the same rows. -/
theorem rows7_apply (t : Fin cfg0.N) (A : ((cfg0.win 7).blk t).view.ty.Contents (Elt Ideal)) (p : Fin 4000) (j : Fin 128) :
    ((cfg0.win 7).blk t).view.read (Elt Ideal) A (ix2 p j) = A (ix2 (rowOf t p) j) := by
  obtain ⟨-, -, -, -, -, -, -, -, -, -, -, -, e0, e1⟩ := idx_facts t
  show A (((cfg0.win 7).blk t).view.emb (ix2 p j)) = _
  refine congrArg A (funext fun a => Fin.ext ?_)
  match a with
  | ⟨0, _⟩ => show win0_7.index t (0 : Fin 2) * 4000 + 1 * p.val = t.val * 4000 + p.val; rw [e0]; omega
  | ⟨1, _⟩ => show win0_7.index t (1 : Fin 2) * 128 + 1 * j.val = j.val; rw [e1]; omega

/-- Window 3 (the weights): every point's block is the whole array. -/
theorem all3_apply (t : Fin cfg0.N) (A : ((cfg0.win 3).blk t).view.ty.Contents (Elt Ideal)) (l : Fin 3) (k j : Fin 128) :
    ((cfg0.win 3).blk t).view.read (Elt Ideal) A (ix3 l k j) = A (ix3 l k j) := by
  obtain ⟨-, -, -, -, -, -, e0, e1, e2, -⟩ := idx_facts t
  show A (((cfg0.win 3).blk t).view.emb (ix3 l k j)) = _
  refine congrArg A (funext fun a => Fin.ext ?_)
  match a with
  | ⟨0, _⟩ => show win0_3.index t (0 : Fin 3) * 3 + 1 * l.val = l.val; rw [e0]; omega
  | ⟨1, _⟩ => show win0_3.index t (1 : Fin 3) * 128 + 1 * k.val = k.val; rw [e1]; omega
  | ⟨2, _⟩ => show win0_3.index t (2 : Fin 3) * 128 + 1 * j.val = j.val; rw [e2]; omega

/-- Window 4 (the bias): every point's block is the whole vector. -/
theorem all4_apply (t : Fin cfg0.N) (A : ((cfg0.win 4).blk t).view.ty.Contents (Elt Ideal)) (j : Fin 128) :
    ((cfg0.win 4).blk t).view.read (Elt Ideal) A (ix1 j) = A (ix1 j) := by
  obtain ⟨-, -, -, -, -, -, -, -, -, e0, -⟩ := idx_facts t
  show A (((cfg0.win 4).blk t).view.emb (ix1 j)) = _
  refine congrArg A (funext fun a => Fin.ext ?_)
  match a with
  | ⟨0, _⟩ => show win0_4.index t (0 : Fin 1) * 128 + 1 * j.val = j.val; rw [e0]; omega

/-- Window 5 (the scale): every point's block is the whole vector. -/
theorem all5_apply (t : Fin cfg0.N) (A : ((cfg0.win 5).blk t).view.ty.Contents (Elt Ideal)) (j : Fin 128) :
    ((cfg0.win 5).blk t).view.read (Elt Ideal) A (ix1 j) = A (ix1 j) := by
  obtain ⟨-, -, -, -, -, -, -, -, -, -, e0, -⟩ := idx_facts t
  show A (((cfg0.win 5).blk t).view.emb (ix1 j)) = _
  refine congrArg A (funext fun a => Fin.ext ?_)
  match a with
  | ⟨0, _⟩ => show win0_5.index t (0 : Fin 1) * 128 + 1 * j.val = j.val; rw [e0]; omega

/-- Window 6 (the shift): every point's block is the whole vector. -/
theorem all6_apply (t : Fin cfg0.N) (A : ((cfg0.win 6).blk t).view.ty.Contents (Elt Ideal)) (j : Fin 128) :
    ((cfg0.win 6).blk t).view.read (Elt Ideal) A (ix1 j) = A (ix1 j) := by
  obtain ⟨-, -, -, -, -, -, -, -, -, -, -, e0, -⟩ := idx_facts t
  show A (((cfg0.win 6).blk t).view.emb (ix1 j)) = _
  refine congrArg A (funext fun a => Fin.ext ?_)
  match a with
  | ⟨0, _⟩ => show win0_6.index t (0 : Fin 1) * 128 + 1 * j.val = j.val; rw [e0]; omega

/-! The same facts about the blocks the region's proof data names (`iblk`): the array read is the one the region finds. -/

theorem feat0_apply (c : Dev nD) (t : Fin cfg0.N) (p : Fin 4000) (k : Fin 128) :
    iblk m c 0 t (ix2 p k) = V m c main_arg0 (ix2 (rowOf t p) k) := rows0_apply t (V m c main_arg0) p k

theorem feat1_apply (c : Dev nD) (t : Fin cfg0.N) (p : Fin 4000) (k : Fin 128) :
    iblk m c 1 t (ix2 p k) = V m c main_v44 (ix2 (rowOf t p) k) := rows1_apply t (V m c main_v44) p k

theorem feat2_apply (c : Dev nD) (t : Fin cfg0.N) (p : Fin 4000) (k : Fin 128) :
    iblk m c 2 t (ix2 p k) = V m c main_v63 (ix2 (rowOf t p) k) := rows2_apply t (V m c main_v63) p k

theorem weights_apply (c : Dev nD) (t : Fin cfg0.N) (l : Fin 3) (k j : Fin 128) :
    iblk m c 3 t (ix3 l k j) = V m c main_arg2 (ix3 l k j) := all3_apply t (V m c main_arg2) l k j

theorem bias_apply (c : Dev nD) (t : Fin cfg0.N) (j : Fin 128) :
    iblk m c 4 t (ix1 j) = V m c main_arg3 (ix1 j) := all4_apply t (V m c main_arg3) j

theorem scale_apply (c : Dev nD) (t : Fin cfg0.N) (j : Fin 128) :
    iblk m c 5 t (ix1 j) = V m c main_arg4 (ix1 j) := all5_apply t (V m c main_arg4) j

theorem shift_apply (c : Dev nD) (t : Fin cfg0.N) (j : Fin 128) :
    iblk m c 6 t (ix1 j) = V m c main_arg5 (ix1 j) := all6_apply t (V m c main_arg5) j

end Cert.KernelIdeal.ArrayValue

end
-- ==== Proof.KernelArray.lean ====
/-
  From blocks to the whole array: the kernel's result as one function of the arrays the region finds.

  Each row of the result depends on that row of the three feature matrices only, so what point `t` writes back —
  rows `4000·t … 4000·t + 3999` — is block `t` of ONE whole-array function, Spec.lean's `out` of the seven arrays; the
  ten blocks tile the 40000 rows, and the array after the run is that function.
-/
import proofs.«147673_j49864570306621_1_alg».proof.Proof.KernelBlocks

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole result as the region finds its seven arrays. -/
def whole (c : Dev nD) : S40000x128.Idx → EReal :=
  Cert.ChebNorm.out (V m c main_arg0) (V m c main_v44) (V m c main_v63) (V m c main_arg2) (V m c main_arg3)
    (V m c main_arg4) (V m c main_arg5)

/-- The output window's block is whole: nothing is cut from what the body leaves. -/
theorem cut_whole (t : Fin cfg0.N) (X : Vec Ideal S4000x128 .f32) : (cfg0.win 7).cut (grid0.coords t) X = X := rfl

/-- WHAT POINT `t` WRITES BACK is block `t` of the whole result. -/
theorem flushed_eq (c : Dev nD) (t : Fin cfg0.N) :
    (dats m 0 c).flushed 7 t = ((cfg0.win 7).blk t).view.read (Elt Ideal) (whole m c) := by
  rw [Value.flushed7, cut_whole]
  funext (y : S4000x128.Idx)
  obtain ⟨p, j, rfl⟩ : ∃ (p : Fin 4000) (j : Fin 128), y = ix2 p j := ⟨y 0, y 1, eq_ix2 y⟩
  rw [rows7_apply t (whole m c) p j,
    body_apply (iblk m c 0 t) (iblk m c 1 t) (iblk m c 2 t) (iblk m c 3 t) (iblk m c 4 t) (iblk m c 5 t) (iblk m c 6 t) p j]
  unfold whole
  rw [Cert.ChebNorm.out_apply]
  unfold Cert.ChebNorm.proj
  simp only [feat0_apply m c t, feat1_apply m c t, feat2_apply m c t, weights_apply m c t, bias_apply m c t,
    scale_apply m c t, shift_apply m c t]

/-- An index of the array is in point `t`'s block iff each coordinate is in the block's range on its axis. -/
theorem mem_blk (t : Fin cfg0.N) (i : S40000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v64).slice (win0_7.rect t)).set ↔ _
  rw [View.set_slice_whole, Rect.mem_set_unit]
  exact Iff.rfl

/-- The ten blocks tile the array: row `r` is in the block of point `r / 4000`. -/
theorem covered (i : S40000x128.Idx) :
    ∃ t : Fin cfg0.N, (cfg0.win 7).flush t = true ∧ i ∈ ((cfg0.win 7).blk t).view.set := by
  have hi0 : (i 0).val < 40000 := (i 0).isLt
  have hi1 : (i 1).val < 128 := (i 1).isLt
  have hq : (i 0).val / 4000 < 10 := by omega
  have hN : cfg0.N = 10 := N_0
  let t : Fin cfg0.N := ⟨(i 0).val / 4000, lt_of_lt_of_eq hq hN.symm⟩
  obtain ⟨-, -, -, -, -, -, -, -, -, -, -, -, e0, e1⟩ := idx_facts t
  have e0' : win0_7.index t (0 : Fin 2) = (i 0).val / 4000 := e0
  refine ⟨t, flush0_7 t, ?_⟩
  rw [mem_blk]
  intro a
  match a with
  | ⟨0, _⟩ =>
    show win0_7.index t (0 : Fin 2) * 4000 ≤ (i 0).val ∧ (i 0).val < win0_7.index t (0 : Fin 2) * 4000 + 4000
    rw [e0']; omega
  | ⟨1, _⟩ =>
    show win0_7.index t (1 : Fin 2) * 128 ≤ (i 1).val ∧ (i 1).val < win0_7.index t (1 : Fin 2) * 128 + 128
    rw [e1]; omega

/-- THE ARRAY after the run is the whole result. -/
theorem final (c : Dev nD) : (dats m 0 c).arrAt 7 cfg0.N = whole m c :=
  (dats m 0 c).arrAt_eq_of_cover 7 (whole m c) (fun t _ => flushed_eq m c t) covered

end Cert.KernelIdeal.ArrayValue

end
-- ==== Proof.Laplacian.lean ====
/-
  The two further Chebyshev terms of the scaled graph Laplacian, as the host operations compute them.

  The graph is a list of 640000 weighted edges (row endpoint, column endpoint, weight) over 40000 nodes. A node's
  degree is the sum of the weights of the edges whose row endpoint it is; `dinv` is its inverse square root where
  the degree is positive and zero elsewhere; an edge's coefficient is `-dinv[row]·w·dinv[col]`. One application of
  the operator to node features `h` gathers `h` at each edge's column endpoint, scales it by the edge's coefficient
  and adds it into the row endpoint's row (plus `0·h`, the diagonal term at the chosen scale). `term1 = L x` and
  `term2 = 2·L(term1) - x`. Both programs spell these with the same host operations, so the chain is stated once,
  as functions of the node features, the edge weights and the endpoint table, and is never opened.
-/
import proofs.«147673_j49864570306621_1_alg».proof.KernelIdeal
import proofs.«147673_j49864570306621_1_alg».proof.Proof.Gen.KernelIdeal

noncomputable section

namespace Cert.KernelIdeal.Laplacian

open Cert.KernelIdeal Cert.KernelIdeal.Facts₀ Idealize.ShloMosaic Idealize.ShloMosaic.TcCoe Idealize.SL.Sem

variable {F : FTy → Type} [FloatOps F]

/-- Node features. -/
abbrev Feat (F : FTy → Type) : Type := (⟨S40000x128, .f32⟩ : BufTy).Contents (Elt F)
/-- One float per edge. -/
abbrev PerEdge (F : FTy → Type) : Type := (⟨S640000, .f32⟩ : BufTy).Contents (Elt F)
/-- One node number per edge. -/
abbrev EdgeEnd (F : FTy → Type) : Type := (⟨S640000, .i32⟩ : BufTy).Contents (Elt F)
/-- The endpoint table: row 0 the row endpoints, row 1 the column endpoints. -/
abbrev Ends (F : FTy → Type) : Type := (⟨S2x640000, .i32⟩ : BufTy).Contents (Elt F)

/-- The edges' row endpoints. -/
def rowEnd (ei : Ends F) : EdgeEnd F := fun i =>
  shapeCast S640000 (extractStridedSlice S1x640000 ![0, 0] ei slices_S2x640000_S1x640000_0_0) shapeCasts_S1x640000_S640000 i

/-- The edges' column endpoints. -/
def colEnd (ei : Ends F) : EdgeEnd F := fun i =>
  shapeCast S640000 (extractStridedSlice S1x640000 ![1, 0] ei slices_S2x640000_S1x640000_1_0) shapeCasts_S1x640000_S640000 i

/-- A node number made non-negative (a negative one counts from the end), as a column of gather indices. -/
def wrapped (e : EdgeEnd F) : (⟨S640000x1, .i32⟩ : BufTy).Contents (Elt F) :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 40000#32))) e)

/-- A node's weighted degree. -/
def degree (ew : PerEdge F) (ei : Ends F) : (⟨S40000, .f32⟩ : BufTy).Contents (Elt F) :=
  Host.scatterAdd scatter_S40000_S640000x1_S640000_n_0_0_1
    (broadcastInDim S40000 ![] bcast_S_S40000 (constant S_ .f32 0x00000000#32))
    (broadcastInDim S640000x1 ![0] bcast_S640000_S640000x1_0 (rowEnd ei)) ew

/-- The inverse square root of the degree where it is positive, zero elsewhere. -/
def dinv (ew : PerEdge F) (ei : Ends F) : (⟨S40000, .f32⟩ : BufTy).Contents (Elt F) :=
  select (cmpf .ogt (degree ew ei) (broadcastInDim S40000 ![] bcast_S_S40000 (constant S_ .f32 0x00000000#32)))
    (Host.rsqrt (degree ew ei))
    (broadcastInDim S40000 ![] bcast_S_S40000 (id (constant S_ .f32 0x00000000#32)))

/-- An edge's coefficient `-dinv[row]·w·dinv[col]`. -/
def coeff (ew : PerEdge F) (ei : Ends F) : PerEdge F :=
  mulf (mulf (mulf (broadcastInDim S640000 ![] bcast_S_S640000 (constant S_ .f32 0xBF800000#32))
      (Host.gather gather_S40000_S640000x1_S640000_n_0_n_n_0_1_1 (dinv ew ei) (wrapped (rowEnd ei)))) ew)
    (Host.gather gather_S40000_S640000x1_S640000_n_0_n_n_0_1_1 (dinv ew ei) (wrapped (colEnd ei)))

/-- One application of the operator to node features. -/
def apply (h : Feat F) (ew : PerEdge F) (ei : Ends F) : Feat F :=
  addf
    (Host.scatterAdd scatter_S40000x128_S640000x1_S640000x128_1_0_0_1
      (broadcastInDim S40000x128 ![] bcast_S_S40000x128 (constant S_ .f32 0x00000000#32))
      (broadcastInDim S640000x1 ![0] bcast_S640000_S640000x1_0 (rowEnd ei))
      (mulf (broadcastInDim S640000x128 ![0, 1] bcast_S640000x1_S640000x128_0_1
              (broadcastInDim S640000x1 ![0] bcast_S640000_S640000x1_0 (coeff ew ei)))
        (Host.gather gather_S40000x128_S640000x1_S640000x128_1_0_n_n_0_1_1128 h (wrapped (colEnd ei)))))
    (mulf (broadcastInDim S40000x128 ![] bcast_S_S40000x128 (constant S_ .f32 0x00000000#32)) h)

/-- The first further term, `L x`. -/
def term1 (x : Feat F) (ew : PerEdge F) (ei : Ends F) : Feat F := apply x ew ei

/-- The second further term, `2·L(L x) - x`. -/
def term2 (x : Feat F) (ew : PerEdge F) (ei : Ends F) : Feat F :=
  subf (mulf (broadcastInDim S40000x128 ![] bcast_S_S40000x128 (constant S_ .f32 0x40000000#32))
    (apply (term1 x ew ei) ew ei)) x

end Cert.KernelIdeal.Laplacian

end
-- ==== Proof.KernelHost.lean ====
/-
  What the region finds in its second and third operands: the two further Chebyshev terms.

  Before the region the program's host operations compute, from the node features, the edge weights and the
  endpoint table, the arrays `L x` and `2·L(L x) - x` (Laplacian.lean). The region's windows 1 and 2 read
  exactly these two arrays; window 0 reads the node features themselves.
-/
import proofs.«147673_j49864570306621_1_alg».proof.Proof.Gen.KernelIdeal.Frame
import proofs.«147673_j49864570306621_1_alg».proof.Proof.Laplacian
import Idealize.ShloMosaic.Lib.StableHlo.Run

set_option maxRecDepth 16384

noncomputable section

namespace Cert.KernelIdeal.HostTerms

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 4000000 in
/-- The array window 1 reads is `L x`. -/
theorem V_term1 (c : Dev nD) :
    (V m c main_v44 : (⟨S40000x128, .f32⟩ : BufTy).Contents (Elt F))
      = Laplacian.term1 (m ((c : Thread nD τ).loc main_arg0)) (m ((c : Thread nD τ).loc main_arg1))
          (m ((c : Thread nD τ).loc main_arg6)) := by
  dsimp only [Gen.V]
  simp only [Gen.hostOps0, Gen.hostOps0_1, Gen.hostOps0_2, List.flatten_cons, List.flatten_nil, List.append_nil,
    List.cons_append, List.nil_append]
  after_results_simp
  rfl

set_option maxHeartbeats 4000000 in
/-- The array window 2 reads is `2·L(L x) - x`. -/
theorem V_term2 (c : Dev nD) :
    (V m c main_v63 : (⟨S40000x128, .f32⟩ : BufTy).Contents (Elt F))
      = Laplacian.term2 (m ((c : Thread nD τ).loc main_arg0)) (m ((c : Thread nD τ).loc main_arg1))
          (m ((c : Thread nD τ).loc main_arg6)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.HostTerms

end
-- ==== Proof.KernelValue.lean ====
/-
  The kernel's run on the extended reals, with its result named.

  Every weakly fair execution of the kernel's program terminates with the result array at Spec.lean's `out` of the
  node features, the two further Chebyshev terms the host operations computed from them (Laplacian.lean), the
  weights and the three parameter vectors, and with the seven argument arrays unchanged.
-/
import proofs.«147673_j49864570306621_1_alg».proof.Proof.KernelArray
import proofs.«147673_j49864570306621_1_alg».proof.Proof.KernelHost

noncomputable section

namespace Cert.KernelIdeal.ArrayValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The arrays the region finds, named: the arguments as launched, the two further terms as functions of them. -/
theorem whole_eq (c : Dev nD) :
    whole m c = Cert.ChebNorm.out (m ((c : Thread nD τ).loc main_arg0))
      (Laplacian.term1 (F := Ideal) (m ((c : Thread nD τ).loc main_arg0)) (m ((c : Thread nD τ).loc main_arg1)) (m ((c : Thread nD τ).loc main_arg6)))
      (Laplacian.term2 (F := Ideal) (m ((c : Thread nD τ).loc main_arg0)) (m ((c : Thread nD τ).loc main_arg1)) (m ((c : Thread nD τ).loc main_arg6)))
      (m ((c : Thread nD τ).loc main_arg2)) (m ((c : Thread nD τ).loc main_arg3)) (m ((c : Thread nD τ).loc main_arg4))
      (m ((c : Thread nD τ).loc main_arg5)) := by
  unfold whole
  rw [V_main_arg0, HostTerms.V_term1, HostTerms.V_term2, V_main_arg2, V_main_arg3, V_main_arg4, V_main_arg5]

/-- The run, with the result array at its function of the arguments and the arguments unchanged. -/
theorem run : θ_run (defs (F := Ideal)) (onTc (τ := τ) (main (F := Ideal))) ⟨m, fun _ => 0, ρ⟩ fun r => ∀ c : Dev nD,
      r.2.mem ((c : Thread nD τ).loc main_v64) = Cert.ChebNorm.out (m ((c : Thread nD τ).loc main_arg0))
        (Laplacian.term1 (F := Ideal) (m ((c : Thread nD τ).loc main_arg0)) (m ((c : Thread nD τ).loc main_arg1)) (m ((c : Thread nD τ).loc main_arg6)))
        (Laplacian.term2 (F := Ideal) (m ((c : Thread nD τ).loc main_arg0)) (m ((c : Thread nD τ).loc main_arg1)) (m ((c : Thread nD τ).loc main_arg6)))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (whole_eq m c)), (h c).2⟩)
    (Value.run_blocks m ρ)

end Cert.KernelIdeal.ArrayValue

end
-- ==== Proof.RefRun.lean ====
/-
  The reference program's run, as one straight line of host operations.

  @main is printed in two windows and calls three module-local functions: the select that zeroes the inverse
  square root of a non-positive degree, the row variance (which itself calls a select), and the clip at zero. A call
  means its callee's body on the call's own buffers, so with the three bodies written out at their call sites @main
  is a straight line of 144 host operations. They are listed in three stretches, cut where the mathematics
  cuts: the first window (62 operations: the edge coefficients, the first further Chebyshev term and the projection
  of the node features themselves); the second window up to the second further Chebyshev term (28); and the rest
  (54: the last projection, the bias, the row normalisation, scale, shift and clip). Every weakly fair execution
  terminates, and every buffer ends at the fold of the operations' results over the launch contents.
-/
import proofs.«147673_j49864570306621_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first window's operations in order, the degree select's three written out at its call. -/
abbrev ops0 : List (HloOp τ sig (Elt F)) :=
  [ unary main_arg6 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg6 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_cst (constant S_ .f32 0x00000000#32),
    unary main_cst main_v4 (broadcastInDim S40000 ![] bcast_S_S40000 : (⟨S_, .f32⟩ : BufTy).Contents (Elt F) → (⟨S40000, .f32⟩ : BufTy).Contents (Elt F)),
    unary main_v1 main_v5 (broadcastInDim S640000x1 ![0] bcast_S640000_S640000x1_0 : (⟨S640000, .i32⟩ : BufTy).Contents (Elt F) → (⟨S640000x1, .i32⟩ : BufTy).Contents (Elt F)),
    ternary main_v4 main_v5 main_arg1 main_v6 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_0 (constant S_ .f32 0x00000000#32),
    unary main_cst_0 main_v7 (broadcastInDim S40000 ![] bcast_S_S40000 : (⟨S_, .f32⟩ : BufTy).Contents (Elt F) → (⟨S40000, .f32⟩ : BufTy).Contents (Elt F)),
    binary main_v6 main_v7 main_v8 (cmpf .ogt : (⟨S40000, .f32⟩ : BufTy).Contents (Elt F) → (⟨S40000, .f32⟩ : BufTy).Contents (Elt F) → (⟨S40000, .i1⟩ : BufTy).Contents (Elt F)),
    unary main_v6 main_v9 (Host.rsqrt : (⟨S40000, .f32⟩ : BufTy).Contents (Elt F) → (⟨S40000, .f32⟩ : BufTy).Contents (Elt F)),
    nullary main_cst_1 (constant S_ .f32 0x00000000#32),
    TRef.unary (.of main_cst_1) main_call0.v0 id,
    TRef.unary main_call0.v0 main_call0.v1 (broadcastInDim S40000 ![] bcast_S_S40000),
    TRef.ternary (.of main_v8) (.of main_v9) main_call0.v1 main_call0.v2 select,
    nullary main_c (constantI S_ 32 0#32),
    unary main_c main_v11 (broadcastInDim S640000 ![] bcast_S_S640000 : (⟨S_, .i32⟩ : BufTy).Contents (Elt F) → (⟨S640000, .i32⟩ : BufTy).Contents (Elt F)),
    binary main_v1 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 40000#32),
    unary main_c_2 main_v13 (broadcastInDim S640000 ![] bcast_S_S640000 : (⟨S_, .i32⟩ : BufTy).Contents (Elt F) → (⟨S640000, .i32⟩ : BufTy).Contents (Elt F)),
    binary main_v1 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_v10 main_v16 main_v17 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    nullary main_cst_3 (constant S_ .f32 0xBF800000#32),
    unary main_cst_3 main_v18 (broadcastInDim S640000 ![] bcast_S_S640000 : (⟨S_, .f32⟩ : BufTy).Contents (Elt F) → (⟨S640000, .f32⟩ : BufTy).Contents (Elt F)),
    binary main_v18 main_v17 main_v19 (mulf : (⟨S640000, .f32⟩ : BufTy).Contents (Elt F) → (⟨S640000, .f32⟩ : BufTy).Contents (Elt F) → (⟨S640000, .f32⟩ : BufTy).Contents (Elt F)),
    binary main_v19 main_arg1 main_v20 (mulf : (⟨S640000, .f32⟩ : BufTy).Contents (Elt F) → (⟨S640000, .f32⟩ : BufTy).Contents (Elt F) → (⟨S640000, .f32⟩ : BufTy).Contents (Elt F)),
    nullary main_c_4 (constantI S_ 32 0#32),
    unary main_c_4 main_v21 (broadcastInDim S640000 ![] bcast_S_S640000 : (⟨S_, .i32⟩ : BufTy).Contents (Elt F) → (⟨S640000, .i32⟩ : BufTy).Contents (Elt F)),
    binary main_v3 main_v21 main_v22 (cmpi .slt : (⟨S640000, .i32⟩ : BufTy).Contents (Elt F) → (⟨S640000, .i32⟩ : BufTy).Contents (Elt F) → (⟨S640000, .i1⟩ : BufTy).Contents (Elt F)),
    nullary main_c_5 (constantI S_ 32 40000#32),
    unary main_c_5 main_v23 (broadcastInDim S640000 ![] bcast_S_S640000 : (⟨S_, .i32⟩ : BufTy).Contents (Elt F) → (⟨S640000, .i32⟩ : BufTy).Contents (Elt F)),
    binary main_v3 main_v23 main_v24 (addi : (⟨S640000, .i32⟩ : BufTy).Contents (Elt F) → (⟨S640000, .i32⟩ : BufTy).Contents (Elt F) → (⟨S640000, .i32⟩ : BufTy).Contents (Elt F)),
    ternary main_v22 main_v24 main_v3 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v25 main_v26 (broadcastInDim S640000x1 ![0] bcast_S640000_S640000x1_0 : (⟨S640000, .i32⟩ : BufTy).Contents (Elt F) → (⟨S640000x1, .i32⟩ : BufTy).Contents (Elt F)),
    binary main_v10 main_v26 main_v27 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    binary main_v20 main_v27 main_v28 (mulf : (⟨S640000, .f32⟩ : BufTy).Contents (Elt F) → (⟨S640000, .f32⟩ : BufTy).Contents (Elt F) → (⟨S640000, .f32⟩ : BufTy).Contents (Elt F)),
    unary main_arg2 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v29 main_v30 rfl shapeCasts_S1x128x128_S128x128,
    binary main_arg0 main_v30 main_v31 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_v28 main_v32 (broadcastInDim S640000x1 ![0] bcast_S640000_S640000x1_0 : (⟨S640000, .f32⟩ : BufTy).Contents (Elt F) → (⟨S640000x1, .f32⟩ : BufTy).Contents (Elt F)),
    nullary main_c_6 (constantI S_ 32 0#32),
    unary main_c_6 main_v33 (broadcastInDim S640000 ![] bcast_S_S640000 : (⟨S_, .i32⟩ : BufTy).Contents (Elt F) → (⟨S640000, .i32⟩ : BufTy).Contents (Elt F)),
    binary main_v3 main_v33 main_v34 (cmpi .slt : (⟨S640000, .i32⟩ : BufTy).Contents (Elt F) → (⟨S640000, .i32⟩ : BufTy).Contents (Elt F) → (⟨S640000, .i1⟩ : BufTy).Contents (Elt F)),
    nullary main_c_7 (constantI S_ 32 40000#32),
    unary main_c_7 main_v35 (broadcastInDim S640000 ![] bcast_S_S640000 : (⟨S_, .i32⟩ : BufTy).Contents (Elt F) → (⟨S640000, .i32⟩ : BufTy).Contents (Elt F)),
    binary main_v3 main_v35 main_v36 (addi : (⟨S640000, .i32⟩ : BufTy).Contents (Elt F) → (⟨S640000, .i32⟩ : BufTy).Contents (Elt F) → (⟨S640000, .i32⟩ : BufTy).Contents (Elt F)),
    ternary main_v34 main_v36 main_v3 main_v37 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v37 main_v38 (broadcastInDim S640000x1 ![0] bcast_S640000_S640000x1_0 : (⟨S640000, .i32⟩ : BufTy).Contents (Elt F) → (⟨S640000x1, .i32⟩ : BufTy).Contents (Elt F)),
    binary main_arg0 main_v38 main_v39 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    unary main_v32 main_v40 (broadcastInDim S640000x128 ![0, 1] bcast_S640000x1_S640000x128_0_1 : (⟨S640000x1, .f32⟩ : BufTy).Contents (Elt F) → (⟨S640000x128, .f32⟩ : BufTy).Contents (Elt F)),
    binary main_v40 main_v39 main_v41 (mulf : (⟨S640000x128, .f32⟩ : BufTy).Contents (Elt F) → (⟨S640000x128, .f32⟩ : BufTy).Contents (Elt F) → (⟨S640000x128, .f32⟩ : BufTy).Contents (Elt F)),
    nullary main_cst_8 (constant S_ .f32 0x00000000#32),
    unary main_cst_8 main_v42 (broadcastInDim S40000x128 ![] bcast_S_S40000x128 : (⟨S_, .f32⟩ : BufTy).Contents (Elt F) → (⟨S40000x128, .f32⟩ : BufTy).Contents (Elt F)),
    unary main_v1 main_v43 (broadcastInDim S640000x1 ![0] bcast_S640000_S640000x1_0 : (⟨S640000, .i32⟩ : BufTy).Contents (Elt F) → (⟨S640000x1, .i32⟩ : BufTy).Contents (Elt F)),
    ternary main_v42 main_v43 main_v41 main_v44 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_9 (constant S_ .f32 0x00000000#32),
    unary main_cst_9 main_v45 (broadcastInDim S40000x128 ![] bcast_S_S40000x128 : (⟨S_, .f32⟩ : BufTy).Contents (Elt F) → (⟨S40000x128, .f32⟩ : BufTy).Contents (Elt F)),
    binary main_v45 main_arg0 main_v46 (mulf : (⟨S40000x128, .f32⟩ : BufTy).Contents (Elt F) → (⟨S40000x128, .f32⟩ : BufTy).Contents (Elt F) → (⟨S40000x128, .f32⟩ : BufTy).Contents (Elt F)),
    binary main_v44 main_v46 main_v47 (addf : (⟨S40000x128, .f32⟩ : BufTy).Contents (Elt F) → (⟨S40000x128, .f32⟩ : BufTy).Contents (Elt F) → (⟨S40000x128, .f32⟩ : BufTy).Contents (Elt F)) ]

/-- The second window's operations up to the second further Chebyshev term. -/
abbrev ops1a : List (HloOp τ sig (Elt F)) :=
  [ unary main_arg2 main_v48 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v48 main_v49 rfl shapeCasts_S1x128x128_S128x128,
    binary main_v47 main_v49 main_v50 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v31 main_v50 main_v51 (addf : (⟨S40000x128, .f32⟩ : BufTy).Contents (Elt F) → (⟨S40000x128, .f32⟩ : BufTy).Contents (Elt F) → (⟨S40000x128, .f32⟩ : BufTy).Contents (Elt F)),
    unary main_v28 main_v52 (broadcastInDim S640000x1 ![0] bcast_S640000_S640000x1_0 : (⟨S640000, .f32⟩ : BufTy).Contents (Elt F) → (⟨S640000x1, .f32⟩ : BufTy).Contents (Elt F)),
    nullary main_c_10 (constantI S_ 32 0#32),
    unary main_c_10 main_v53 (broadcastInDim S640000 ![] bcast_S_S640000 : (⟨S_, .i32⟩ : BufTy).Contents (Elt F) → (⟨S640000, .i32⟩ : BufTy).Contents (Elt F)),
    binary main_v3 main_v53 main_v54 (cmpi .slt : (⟨S640000, .i32⟩ : BufTy).Contents (Elt F) → (⟨S640000, .i32⟩ : BufTy).Contents (Elt F) → (⟨S640000, .i1⟩ : BufTy).Contents (Elt F)),
    nullary main_c_11 (constantI S_ 32 40000#32),
    unary main_c_11 main_v55 (broadcastInDim S640000 ![] bcast_S_S640000 : (⟨S_, .i32⟩ : BufTy).Contents (Elt F) → (⟨S640000, .i32⟩ : BufTy).Contents (Elt F)),
    binary main_v3 main_v55 main_v56 (addi : (⟨S640000, .i32⟩ : BufTy).Contents (Elt F) → (⟨S640000, .i32⟩ : BufTy).Contents (Elt F) → (⟨S640000, .i32⟩ : BufTy).Contents (Elt F)),
    ternary main_v54 main_v56 main_v3 main_v57 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v57 main_v58 (broadcastInDim S640000x1 ![0] bcast_S640000_S640000x1_0 : (⟨S640000, .i32⟩ : BufTy).Contents (Elt F) → (⟨S640000x1, .i32⟩ : BufTy).Contents (Elt F)),
    binary main_v47 main_v58 main_v59 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    unary main_v52 main_v60 (broadcastInDim S640000x128 ![0, 1] bcast_S640000x1_S640000x128_0_1 : (⟨S640000x1, .f32⟩ : BufTy).Contents (Elt F) → (⟨S640000x128, .f32⟩ : BufTy).Contents (Elt F)),
    binary main_v60 main_v59 main_v61 (mulf : (⟨S640000x128, .f32⟩ : BufTy).Contents (Elt F) → (⟨S640000x128, .f32⟩ : BufTy).Contents (Elt F) → (⟨S640000x128, .f32⟩ : BufTy).Contents (Elt F)),
    nullary main_cst_12 (constant S_ .f32 0x00000000#32),
    unary main_cst_12 main_v62 (broadcastInDim S40000x128 ![] bcast_S_S40000x128 : (⟨S_, .f32⟩ : BufTy).Contents (Elt F) → (⟨S40000x128, .f32⟩ : BufTy).Contents (Elt F)),
    unary main_v1 main_v63 (broadcastInDim S640000x1 ![0] bcast_S640000_S640000x1_0 : (⟨S640000, .i32⟩ : BufTy).Contents (Elt F) → (⟨S640000x1, .i32⟩ : BufTy).Contents (Elt F)),
    ternary main_v62 main_v63 main_v61 main_v64 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_13 (constant S_ .f32 0x00000000#32),
    unary main_cst_13 main_v65 (broadcastInDim S40000x128 ![] bcast_S_S40000x128 : (⟨S_, .f32⟩ : BufTy).Contents (Elt F) → (⟨S40000x128, .f32⟩ : BufTy).Contents (Elt F)),
    binary main_v65 main_v47 main_v66 (mulf : (⟨S40000x128, .f32⟩ : BufTy).Contents (Elt F) → (⟨S40000x128, .f32⟩ : BufTy).Contents (Elt F) → (⟨S40000x128, .f32⟩ : BufTy).Contents (Elt F)),
    binary main_v64 main_v66 main_v67 (addf : (⟨S40000x128, .f32⟩ : BufTy).Contents (Elt F) → (⟨S40000x128, .f32⟩ : BufTy).Contents (Elt F) → (⟨S40000x128, .f32⟩ : BufTy).Contents (Elt F)),
    nullary main_cst_14 (constant S_ .f32 0x40000000#32),
    unary main_cst_14 main_v68 (broadcastInDim S40000x128 ![] bcast_S_S40000x128 : (⟨S_, .f32⟩ : BufTy).Contents (Elt F) → (⟨S40000x128, .f32⟩ : BufTy).Contents (Elt F)),
    binary main_v68 main_v67 main_v69 (mulf : (⟨S40000x128, .f32⟩ : BufTy).Contents (Elt F) → (⟨S40000x128, .f32⟩ : BufTy).Contents (Elt F) → (⟨S40000x128, .f32⟩ : BufTy).Contents (Elt F)),
    binary main_v69 main_arg0 main_v70 (subf : (⟨S40000x128, .f32⟩ : BufTy).Contents (Elt F) → (⟨S40000x128, .f32⟩ : BufTy).Contents (Elt F) → (⟨S40000x128, .f32⟩ : BufTy).Contents (Elt F)) ]

/-- The second window's remaining operations: the row variance's twenty and its select's three written out at its
    call, the clip's three at its call. -/
abbrev ops1b : List (HloOp τ sig (Elt F)) :=
  [ unary main_arg2 main_v71 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v71 main_v72 rfl shapeCasts_S1x128x128_S128x128,
    binary main_v70 main_v72 main_v73 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    binary main_v51 main_v73 main_v74 (addf : (⟨S40000x128, .f32⟩ : BufTy).Contents (Elt F) → (⟨S40000x128, .f32⟩ : BufTy).Contents (Elt F) → (⟨S40000x128, .f32⟩ : BufTy).Contents (Elt F)),
    unary main_arg3 main_v75 (broadcastInDim S1x128 ![1] bcast_S128_S1x128_1 : (⟨S128, .f32⟩ : BufTy).Contents (Elt F) → (⟨S1x128, .f32⟩ : BufTy).Contents (Elt F)),
    unary main_v75 main_v76 (broadcastInDim S40000x128 ![0, 1] bcast_S1x128_S40000x128_0_1 : (⟨S1x128, .f32⟩ : BufTy).Contents (Elt F) → (⟨S40000x128, .f32⟩ : BufTy).Contents (Elt F)),
    binary main_v74 main_v76 main_v77 (addf : (⟨S40000x128, .f32⟩ : BufTy).Contents (Elt F) → (⟨S40000x128, .f32⟩ : BufTy).Contents (Elt F) → (⟨S40000x128, .f32⟩ : BufTy).Contents (Elt F)),
    nullary main_cst_15 (constant S_ .f32 0x00000000#32),
    binary main_v77 main_cst_15 main_v78 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    unary main_v78 main_v79 (broadcastInDim S40000x1 ![0] bcast_S40000_S40000x1_0 : (⟨S40000, .f32⟩ : BufTy).Contents (Elt F) → (⟨S40000x1, .f32⟩ : BufTy).Contents (Elt F)),
    nullary main_cst_16 (constant S_ .f32 0x43000000#32),
    unary main_cst_16 main_v80 (broadcastInDim S40000x1 ![] bcast_S_S40000x1 : (⟨S_, .f32⟩ : BufTy).Contents (Elt F) → (⟨S40000x1, .f32⟩ : BufTy).Contents (Elt F)),
    binary main_v79 main_v80 main_v81 (Host.divf : (⟨S40000x1, .f32⟩ : BufTy).Contents (Elt F) → (⟨S40000x1, .f32⟩ : BufTy).Contents (Elt F) → (⟨S40000x1, .f32⟩ : BufTy).Contents (Elt F)),
    nullary main_c_17 (constantI S_ 32 0#32),
    TRef.nullary main_call1.cst (constant S_ .f32 0x00000000#32),
    TRef.binary (.of main_v77) main_call1.cst main_call1.v0 (fun x v => Host.reduceAdd x v reducesTo_S40000x128_S40000_d1 h_S_),
    TRef.unary main_call1.v0 main_call1.v1 (broadcastInDim S40000x1 ![0] bcast_S40000_S40000x1_0),
    TRef.nullary main_call1.cst_0 (constant S_ .f32 0x43000000#32),
    TRef.unary main_call1.cst_0 main_call1.v2 (broadcastInDim S40000x1 ![] bcast_S_S40000x1),
    TRef.binary main_call1.v1 main_call1.v2 main_call1.v3 Host.divf,
    TRef.unary main_call1.v3 main_call1.v4 (broadcastInDim S40000x128 ![0, 1] bcast_S40000x1_S40000x128_0_1),
    TRef.binary (.of main_v77) main_call1.v4 main_call1.v5 subf,
    TRef.binary main_call1.v5 main_call1.v5 main_call1.v6 mulf,
    TRef.unary (.of main_c_17) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S40000x128_S40000_d1 h_S_),
    TRef.unary main_call1.v9 main_call1.v10 (broadcastInDim S40000x1 ![0] bcast_S40000_S40000x1_0),
    TRef.unary main_call1.v8 main_call1.v11 (broadcastInDim S40000x1 ![] bcast_S_S40000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S40000x1 ![] bcast_S_S40000x1),
    TRef.ternary main_call1.v13 main_call1.v12 main_call1.call0.v1 main_call1.call0.v2 (fun p a b => select (broadcastInDim S40000x1 ![] bcast_S_S40000x1 p) a b),
    unary main_v81 main_v83 (broadcastInDim S40000x128 ![0, 1] bcast_S40000x1_S40000x128_0_1 : (⟨S40000x1, .f32⟩ : BufTy).Contents (Elt F) → (⟨S40000x128, .f32⟩ : BufTy).Contents (Elt F)),
    binary main_v77 main_v83 main_v84 (subf : (⟨S40000x128, .f32⟩ : BufTy).Contents (Elt F) → (⟨S40000x128, .f32⟩ : BufTy).Contents (Elt F) → (⟨S40000x128, .f32⟩ : BufTy).Contents (Elt F)),
    nullary main_cst_18 (constant S_ .f32 0x3727C5AC#32),
    unary main_cst_18 main_v85 (broadcastInDim S40000x1 ![] bcast_S_S40000x1 : (⟨S_, .f32⟩ : BufTy).Contents (Elt F) → (⟨S40000x1, .f32⟩ : BufTy).Contents (Elt F)),
    binary main_v82 main_v85 main_v86 (addf : (⟨S40000x1, .f32⟩ : BufTy).Contents (Elt F) → (⟨S40000x1, .f32⟩ : BufTy).Contents (Elt F) → (⟨S40000x1, .f32⟩ : BufTy).Contents (Elt F)),
    unary main_v86 main_v87 (Host.rsqrt : (⟨S40000x1, .f32⟩ : BufTy).Contents (Elt F) → (⟨S40000x1, .f32⟩ : BufTy).Contents (Elt F)),
    unary main_v87 main_v88 (broadcastInDim S40000x128 ![0, 1] bcast_S40000x1_S40000x128_0_1 : (⟨S40000x1, .f32⟩ : BufTy).Contents (Elt F) → (⟨S40000x128, .f32⟩ : BufTy).Contents (Elt F)),
    binary main_v84 main_v88 main_v89 (mulf : (⟨S40000x128, .f32⟩ : BufTy).Contents (Elt F) → (⟨S40000x128, .f32⟩ : BufTy).Contents (Elt F) → (⟨S40000x128, .f32⟩ : BufTy).Contents (Elt F)),
    unary main_arg4 main_v90 (broadcastInDim S1x128 ![1] bcast_S128_S1x128_1 : (⟨S128, .f32⟩ : BufTy).Contents (Elt F) → (⟨S1x128, .f32⟩ : BufTy).Contents (Elt F)),
    unary main_v90 main_v91 (broadcastInDim S40000x128 ![0, 1] bcast_S1x128_S40000x128_0_1 : (⟨S1x128, .f32⟩ : BufTy).Contents (Elt F) → (⟨S40000x128, .f32⟩ : BufTy).Contents (Elt F)),
    binary main_v89 main_v91 main_v92 (mulf : (⟨S40000x128, .f32⟩ : BufTy).Contents (Elt F) → (⟨S40000x128, .f32⟩ : BufTy).Contents (Elt F) → (⟨S40000x128, .f32⟩ : BufTy).Contents (Elt F)),
    unary main_arg5 main_v93 (broadcastInDim S1x128 ![1] bcast_S128_S1x128_1 : (⟨S128, .f32⟩ : BufTy).Contents (Elt F) → (⟨S1x128, .f32⟩ : BufTy).Contents (Elt F)),
    unary main_v93 main_v94 (broadcastInDim S40000x128 ![0, 1] bcast_S1x128_S40000x128_0_1 : (⟨S1x128, .f32⟩ : BufTy).Contents (Elt F) → (⟨S40000x128, .f32⟩ : BufTy).Contents (Elt F)),
    binary main_v92 main_v94 main_v95 (addf : (⟨S40000x128, .f32⟩ : BufTy).Contents (Elt F) → (⟨S40000x128, .f32⟩ : BufTy).Contents (Elt F) → (⟨S40000x128, .f32⟩ : BufTy).Contents (Elt F)),
    TRef.nullary main_call2.cst (constant S_ .f32 0x00000000#32),
    TRef.unary main_call2.cst main_call2.v0 (broadcastInDim S40000x128 ![] bcast_S_S40000x128),
    TRef.binary (.of main_v95) main_call2.v0 main_call2.v1 maximumf ]

/-- The second window's operations in order. -/
abbrev ops1 : List (HloOp τ sig (Elt F)) := ops1a ++ ops1b

/-- @main's operations in order. -/
abbrev ops : List (HloOp τ sig (Elt F)) := ops0 ++ ops1

set_option maxRecDepth 65536 in
set_option maxHeartbeats 4000000 in
/-- The first window is its straight line: the select's definition unfolded at its call and the call's record at its
    fields, both sides are one chain of steps once sequencing is reassociated. -/
theorem part0_eq (c : Dev nD) : main_part0 (F := F) c = seq ops0 := by
  simp only [main_part0, fn_where.body, seq, bind_assoc, pure_bind]
  rfl

set_option maxRecDepth 65536 in
set_option maxHeartbeats 4000000 in
/-- The second window likewise, through the variance, its select and the clip. -/
theorem part1_eq (c : Dev nD) : main_part1 (F := F) c = seq ops1 := by
  show main_part1 (F := F) c = seq (ops1a ++ ops1b)
  rw [seq_append]
  simp only [main_part1, fn_var.body, fn_where_0.body, fn_relu.body, seq, bind_assoc, pure_bind]

/-- @main is the two windows run in order, which is their concatenation run as one line. -/
theorem main_eq (c : Dev nD) : main (F := F) c = seq ops := by
  show main (F := F) c = seq (ops0 ++ ops1)
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub ..⟩

set_option maxRecDepth 65536 in
theorem ops1a_sub : (ops1a : List (HloOp τ sig (Elt F))).Forall fun op => op.bufs ⊆ tcRefs τ sig :=
  ⟨unary_bufs_sub .., reshape_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    nullary_bufs_sub .., unary_bufs_sub .., binary_bufs_sub .., binary_bufs_sub ..⟩

set_option maxRecDepth 65536 in
theorem ops1b_sub : (ops1b : List (HloOp τ sig (Elt F))).Forall fun op => op.bufs ⊆ tcRefs τ sig :=
  ⟨unary_bufs_sub .., reshape_bufs_sub .., binary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) fun h => (List.mem_append.mp h).elim
      (List.forall_iff_forall_mem.mp ops1a_sub op) (List.forall_iff_forall_mem.mp ops1b_sub op)

set_option maxRecDepth 65536 in
/-- Every operation of the first stretch determines its results. -/
theorem ops0_fresh : ∀ op ∈ (ops0 : List (HloOp τ sig (Elt F))), op.fresh = ∅ := by
  intro _ h; (repeat (cases h with | head => rfl | tail _ h => ?_)); exact nomatch h

set_option maxRecDepth 65536 in
/-- Every operation of the second stretch determines its results. -/
theorem ops1a_fresh : ∀ op ∈ (ops1a : List (HloOp τ sig (Elt F))), op.fresh = ∅ := by
  intro _ h; (repeat (cases h with | head => rfl | tail _ h => ?_)); exact nomatch h

set_option maxRecDepth 65536 in
/-- Every operation of the third stretch determines its results. -/
theorem ops1b_fresh : ∀ op ∈ (ops1b : List (HloOp τ sig (Elt F))), op.fresh = ∅ := by
  intro _ h; (repeat (cases h with | head => rfl | tail _ h => ?_)); exact nomatch h

/-- Two lines' folds compose: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole fold, stretch by stretch. -/
theorem after_ops (V : Valuation τ sig (Elt F)) :
    after ops V = after ops1b (after ops1a (after ops0 V)) := by
  show after (ops0 ++ (ops1a ++ ops1b)) V = _
  rw [after_append, after_append]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) fun h => (List.mem_append.mp h).elim (ops1a_fresh op) (ops1b_fresh op))

end Cert.ReferenceIdeal.HostRun

end
-- ==== Proof.RefTerm.lean ====
/-
  What the reference's operations compute, as one term of the arguments.

  The operations that are not part of the shared Laplacian chain — the three slabs of `W` sliced and reshaped, the
  three matrix products and their sums, the bias spread over the rows, the row mean, the row variance (spelt by the
  variance function: the mean again, the squared deviations summed, divided by the channel count less a correction of
  zero, kept where that divisor is positive), the inverse square root, the scale, the shift and the clip at zero — are
  written once as a function `refOut` of the node features, the two further Chebyshev terms and the parameters. The
  fold of the whole operation list at the result buffer is `refOut` of the arguments' contents and of the chain's two
  terms of them; the fold leaves every argument buffer as it was. The fold is read in two steps: up to the second
  further term, which is the chain's own; and from there to the result, which is `normed` of the last projection.
-/
import proofs.«147673_j49864570306621_1_alg».proof.Proof.RefRun
import proofs.«147673_j49864570306621_1_alg».proof.Proof.Laplacian

noncomputable section

namespace Cert.ReferenceIdeal.HostTerm

open Cert.ReferenceIdeal Cert.ReferenceIdeal.Gen Cert.ReferenceIdeal.HostRun Idealize.ShloMosaic Idealize.ShloMosaic.TcCoe Idealize.SL.Sem Idealize.ShloMosaic.StableHlo

variable {F : FTy → Type} [FloatOps F]

/-- A 40000 × 128 matrix of floats: node features, a Chebyshev term, a projection. -/
abbrev Mat (F : FTy → Type) : Type := (⟨S40000x128, .f32⟩ : BufTy).Contents (Elt F)
/-- One float per row, as a 40000 × 1 column. -/
abbrev Col (F : FTy → Type) : Type := (⟨S40000x1, .f32⟩ : BufTy).Contents (Elt F)
/-- One float per row. -/
abbrev PerRow (F : FTy → Type) : Type := (⟨S40000, .f32⟩ : BufTy).Contents (Elt F)
/-- One float per channel. -/
abbrev PerChan (F : FTy → Type) : Type := (⟨S128, .f32⟩ : BufTy).Contents (Elt F)
/-- A 128 × 128 matrix. -/
abbrev Slab (F : FTy → Type) : Type := (⟨S128x128, .f32⟩ : BufTy).Contents (Elt F)
/-- The three stacked 128 × 128 matrices. -/
abbrev Stack (F : FTy → Type) : Type := (⟨S3x128x128, .f32⟩ : BufTy).Contents (Elt F)
/-- One float. -/
abbrev One (F : FTy → Type) : Type := (⟨S_, .f32⟩ : BufTy).Contents (Elt F)

/-- The first of the three stacked matrices. -/
def slab0 (W : Stack F) : Slab F := fun i =>
  shapeCast S128x128 (extractStridedSlice S1x128x128 ![0, 0, 0] W slices_S3x128x128_S1x128x128_0_0_0) shapeCasts_S1x128x128_S128x128 i
/-- The second. -/
def slab1 (W : Stack F) : Slab F := fun i =>
  shapeCast S128x128 (extractStridedSlice S1x128x128 ![1, 0, 0] W slices_S3x128x128_S1x128x128_1_0_0) shapeCasts_S1x128x128_S128x128 i
/-- The third. -/
def slab2 (W : Stack F) : Slab F := fun i =>
  shapeCast S128x128 (extractStridedSlice S1x128x128 ![2, 0, 0] W slices_S3x128x128_S1x128x128_2_0_0) shapeCasts_S1x128x128_S128x128 i

/-- A feature matrix times a 128 × 128 matrix. -/
def dotW (h : Mat F) (w : Slab F) : Mat F :=
  Host.dotGeneral dot_S40000x128_S128x128_S40000x128_1_0_0_1_n_n none h w

/-- A per-channel vector laid along every row. -/
def rows (v : PerChan F) : Mat F :=
  broadcastInDim S40000x128 ![0, 1] bcast_S1x128_S40000x128_0_1 (broadcastInDim S1x128 ![1] bcast_S128_S1x128_1 v)

/-- A column laid along every channel. -/
def spread (c : Col F) : Mat F := broadcastInDim S40000x128 ![0, 1] bcast_S40000x1_S40000x128_0_1 c

/-- One float per row as a column. -/
def col (s : PerRow F) : Col F := broadcastInDim S40000x1 ![0] bcast_S40000_S40000x1_0 s

/-- One float laid down a column. -/
def scalarCol (s : One F) : Col F := broadcastInDim S40000x1 ![] bcast_S_S40000x1 s

/-- The sum of each row. -/
def rowSum (y : Mat F) : PerRow F :=
  Host.reduceAdd y (constant (F := F) S_ .f32 0x00000000#32) reducesTo_S40000x128_S40000_d1 h_S_

/-- Each row's mean: its sum over the channel count. -/
def meanCol (y : Mat F) : Col F :=
  Host.divf (col (rowSum y)) (scalarCol (constant (F := F) S_ .f32 0x43000000#32))

/-- The variance's divisor: the channel count less the correction, which is the integer zero made a float. -/
def count : One F := subf (constant (F := F) S_ .f32 0x43000000#32) (sitofp .f32 (constantI S_ 32 0#32))

/-- Each row's variance as the variance function spells it: the squared deviations' sum over the divisor, kept where
    the divisor is positive (elsewhere the not-a-number word). -/
def varCol (y : Mat F) : Col F :=
  select (broadcastInDim S40000x1 ![] bcast_S_S40000x1 (cmpf .ogt (count (F := F)) (constant (F := F) S_ .f32 0x00000000#32)))
    (Host.divf (col (rowSum (mulf (subf y (spread (meanCol y))) (subf y (spread (meanCol y)))))) (scalarCol count))
    (scalarCol (id (constant (F := F) S_ .f32 0x7FC00000#32)))

/-- The rows centred, scaled by the inverse square root of the variance plus the small constant, scaled channel by
    channel by `g`, shifted by `be`, and clipped at zero. -/
def normed (y : Mat F) (g be : PerChan F) : Mat F :=
  maximumf
    (addf
      (mulf
        (mulf (subf y (spread (meanCol y)))
          (spread (Host.rsqrt (addf (varCol y) (scalarCol (constant (F := F) S_ .f32 0x3727C5AC#32))))))
        (rows g))
      (rows be))
    (broadcastInDim S40000x128 ![] bcast_S_S40000x128 (constant (F := F) S_ .f32 0x00000000#32))

/-- The three projections summed, plus the bias. -/
def projSum (x t1 t2 : Mat F) (W : Stack F) (b : PerChan F) : Mat F :=
  addf (addf (addf (dotW x (slab0 W)) (dotW t1 (slab1 W))) (dotW t2 (slab2 W))) (rows b)

/-- The whole result as a function of the node features, the two further terms and the parameters. -/
def refOut (x t1 t2 : Mat F) (W : Stack F) (b g be : PerChan F) : Mat F := normed (projSum x t1 t2 W b) g be

/-! ## The fold up to the second further term -/

set_option maxRecDepth 65536 in
set_option maxHeartbeats 4000000 in
/-- After the first two stretches the buffer of %70 holds the second further term of the arguments: the operations
    are the chain's own, in its order, over shape records with the same fields. -/
theorem v70_eq (V : Valuation τ sig (Elt F)) :
    after ops1a (after ops0 V) (main_v70 : DevRef τ sig)
      = Cert.KernelIdeal.Laplacian.term2 (F := F) (V (main_arg0 : DevRef τ sig)) (V (main_arg1 : DevRef τ sig)) (V (main_arg6 : DevRef τ sig)) := by
  after_results_simp
  unfold Cert.KernelIdeal.Laplacian.term2 Cert.KernelIdeal.Laplacian.term1 Cert.KernelIdeal.Laplacian.apply Cert.KernelIdeal.Laplacian.coeff Cert.KernelIdeal.Laplacian.dinv Cert.KernelIdeal.Laplacian.degree Cert.KernelIdeal.Laplacian.wrapped Cert.KernelIdeal.Laplacian.rowEnd Cert.KernelIdeal.Laplacian.colEnd
  rfl

set_option maxRecDepth 65536 in
set_option maxHeartbeats 4000000 in
/-- … and the buffer of %51 holds the first two projections' sum, the second of the first further term. -/
theorem v51_eq (V : Valuation τ sig (Elt F)) :
    after ops1a (after ops0 V) (main_v51 : DevRef τ sig)
      = addf (dotW (V (main_arg0 : DevRef τ sig)) (slab0 (V (main_arg2 : DevRef τ sig))))
          (dotW (Cert.KernelIdeal.Laplacian.term1 (F := F) (V (main_arg0 : DevRef τ sig)) (V (main_arg1 : DevRef τ sig)) (V (main_arg6 : DevRef τ sig)))
            (slab1 (V (main_arg2 : DevRef τ sig)))) := by
  after_results_simp
  unfold dotW slab0 slab1 Cert.KernelIdeal.Laplacian.term1 Cert.KernelIdeal.Laplacian.apply Cert.KernelIdeal.Laplacian.coeff Cert.KernelIdeal.Laplacian.dinv Cert.KernelIdeal.Laplacian.degree Cert.KernelIdeal.Laplacian.wrapped Cert.KernelIdeal.Laplacian.rowEnd Cert.KernelIdeal.Laplacian.colEnd
  rfl

set_option maxRecDepth 65536 in
set_option maxHeartbeats 4000000 in
theorem mid_arg0 (V : Valuation τ sig (Elt F)) :
    after ops1a (after ops0 V) (main_arg0 : DevRef τ sig) = V (main_arg0 : DevRef τ sig) := by
  after_results_simp

theorem mid_arg1 (V : Valuation τ sig (Elt F)) :
    after ops1a (after ops0 V) (main_arg1 : DevRef τ sig) = V (main_arg1 : DevRef τ sig) := by
  after_results_simp

theorem mid_arg2 (V : Valuation τ sig (Elt F)) :
    after ops1a (after ops0 V) (main_arg2 : DevRef τ sig) = V (main_arg2 : DevRef τ sig) := by
  after_results_simp

theorem mid_arg3 (V : Valuation τ sig (Elt F)) :
    after ops1a (after ops0 V) (main_arg3 : DevRef τ sig) = V (main_arg3 : DevRef τ sig) := by
  after_results_simp

theorem mid_arg4 (V : Valuation τ sig (Elt F)) :
    after ops1a (after ops0 V) (main_arg4 : DevRef τ sig) = V (main_arg4 : DevRef τ sig) := by
  after_results_simp

theorem mid_arg5 (V : Valuation τ sig (Elt F)) :
    after ops1a (after ops0 V) (main_arg5 : DevRef τ sig) = V (main_arg5 : DevRef τ sig) := by
  after_results_simp

theorem mid_arg6 (V : Valuation τ sig (Elt F)) :
    after ops1a (after ops0 V) (main_arg6 : DevRef τ sig) = V (main_arg6 : DevRef τ sig) := by
  after_results_simp

/-! ## The fold's last stretch -/

set_option maxRecDepth 65536 in
set_option maxHeartbeats 4000000 in
/-- From any contents, the last stretch leaves at the result buffer the normalised, scaled, shifted and clipped rows of
    (what %51 held) + (what %70 held)·W₂ + bias. -/
theorem v96_eq (V : Valuation τ sig (Elt F)) :
    after ops1b V (main_v96 : DevRef τ sig)
      = normed (addf (addf (V (main_v51 : DevRef τ sig)) (dotW (V (main_v70 : DevRef τ sig)) (slab2 (V (main_arg2 : DevRef τ sig)))))
            (rows (V (main_arg3 : DevRef τ sig))))
          (V (main_arg4 : DevRef τ sig)) (V (main_arg5 : DevRef τ sig)) := by
  after_results_simp
  unfold normed varCol count meanCol rowSum scalarCol col spread rows dotW slab2
  rfl

set_option maxRecDepth 65536 in
set_option maxHeartbeats 4000000 in
theorem last_arg0 (V : Valuation τ sig (Elt F)) :
    after ops1b V (main_arg0 : DevRef τ sig) = V (main_arg0 : DevRef τ sig) := by
  after_results_simp

theorem last_arg1 (V : Valuation τ sig (Elt F)) :
    after ops1b V (main_arg1 : DevRef τ sig) = V (main_arg1 : DevRef τ sig) := by
  after_results_simp

theorem last_arg2 (V : Valuation τ sig (Elt F)) :
    after ops1b V (main_arg2 : DevRef τ sig) = V (main_arg2 : DevRef τ sig) := by
  after_results_simp

theorem last_arg3 (V : Valuation τ sig (Elt F)) :
    after ops1b V (main_arg3 : DevRef τ sig) = V (main_arg3 : DevRef τ sig) := by
  after_results_simp

theorem last_arg4 (V : Valuation τ sig (Elt F)) :
    after ops1b V (main_arg4 : DevRef τ sig) = V (main_arg4 : DevRef τ sig) := by
  after_results_simp

theorem last_arg5 (V : Valuation τ sig (Elt F)) :
    after ops1b V (main_arg5 : DevRef τ sig) = V (main_arg5 : DevRef τ sig) := by
  after_results_simp

theorem last_arg6 (V : Valuation τ sig (Elt F)) :
    after ops1b V (main_arg6 : DevRef τ sig) = V (main_arg6 : DevRef τ sig) := by
  after_results_simp

/-! ## The whole fold -/

/-- The result buffer after all the operations: `refOut` of the arguments' contents and the chain's two terms of them. -/
theorem out_eq (V : Valuation τ sig (Elt F)) :
    after ops V (main_v96 : DevRef τ sig)
      = refOut (V (main_arg0 : DevRef τ sig))
          (Cert.KernelIdeal.Laplacian.term1 (F := F) (V (main_arg0 : DevRef τ sig)) (V (main_arg1 : DevRef τ sig)) (V (main_arg6 : DevRef τ sig)))
          (Cert.KernelIdeal.Laplacian.term2 (F := F) (V (main_arg0 : DevRef τ sig)) (V (main_arg1 : DevRef τ sig)) (V (main_arg6 : DevRef τ sig)))
          (V (main_arg2 : DevRef τ sig)) (V (main_arg3 : DevRef τ sig)) (V (main_arg4 : DevRef τ sig)) (V (main_arg5 : DevRef τ sig)) := by
  rw [after_ops, v96_eq, v51_eq, v70_eq, mid_arg2, mid_arg3, mid_arg4, mid_arg5]
  rfl

/-- The operations leave argument 0 as it was. -/
theorem arg0_eq (V : Valuation τ sig (Elt F)) :
    after ops V (main_arg0 : DevRef τ sig) = V (main_arg0 : DevRef τ sig) := by
  rw [after_ops, last_arg0, mid_arg0]

/-- The operations leave argument 1 as it was. -/
theorem arg1_eq (V : Valuation τ sig (Elt F)) :
    after ops V (main_arg1 : DevRef τ sig) = V (main_arg1 : DevRef τ sig) := by
  rw [after_ops, last_arg1, mid_arg1]

/-- The operations leave argument 2 as it was. -/
theorem arg2_eq (V : Valuation τ sig (Elt F)) :
    after ops V (main_arg2 : DevRef τ sig) = V (main_arg2 : DevRef τ sig) := by
  rw [after_ops, last_arg2, mid_arg2]

/-- The operations leave argument 3 as it was. -/
theorem arg3_eq (V : Valuation τ sig (Elt F)) :
    after ops V (main_arg3 : DevRef τ sig) = V (main_arg3 : DevRef τ sig) := by
  rw [after_ops, last_arg3, mid_arg3]

/-- The operations leave argument 4 as it was. -/
theorem arg4_eq (V : Valuation τ sig (Elt F)) :
    after ops V (main_arg4 : DevRef τ sig) = V (main_arg4 : DevRef τ sig) := by
  rw [after_ops, last_arg4, mid_arg4]

/-- The operations leave argument 5 as it was. -/
theorem arg5_eq (V : Valuation τ sig (Elt F)) :
    after ops V (main_arg5 : DevRef τ sig) = V (main_arg5 : DevRef τ sig) := by
  rw [after_ops, last_arg5, mid_arg5]

/-- The operations leave argument 6 as it was. -/
theorem arg6_eq (V : Valuation τ sig (Elt F)) :
    after ops V (main_arg6 : DevRef τ sig) = V (main_arg6 : DevRef τ sig) := by
  rw [after_ops, last_arg6, mid_arg6]

end Cert.ReferenceIdeal.HostTerm

end
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«147673_j49864570306621_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.LibHostLayout.lean ====
/-
  General lemmas about layout operations of a host program, read at coordinates, at any extents:
  a vector spread over the rows of a rank-3 array (`broadcast_in_dim` `[n] → [1, 1, n] → [a, b, n]`: entry `(r, s, k)` reads
  the vector at `k` — a bias added to every row of an einsum's result); a scalar spread over a vector; and ONE slab of a
  stacked array, sliced at leading offset `l` out of `[L, a, b]` (or `[L, n]`) and reshaped to `[a, b]` (or `[n]`).
-/
import Idealize.ShloMosaic.Lib.Pipeline.Value
import Idealize.ShloMosaic.Lib.ValueIdx
import Idealize.ShloMosaic.Lib.ValueLayout

namespace Cert.HostLayout

open Idealize.ShloMosaic Idealize.ShloMosaic.ValueIdx

variable {α : Type}

/-- A vector `[n]` laid along the last axis of `[1, 1, n]` and spread to `[a, b, n]` reads, at `(r, s, k)`, the vector at `k`. -/
theorem bias3_apply {a b n : ℕ} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![a, b, n]⟩ ![0, 1, 2]) (r : Fin a) (s : Fin b) (k : Fin n) :
    broadcastInDim ⟨3, ![a, b, n]⟩ ![0, 1, 2] h2 (broadcastInDim ⟨3, ![1, 1, n]⟩ ![2] h1 v) (ix3 r s k) = v (ix1 k) := by
  refine (broadcastInDim_apply _ h2 _ (ix3 r s k) (ix3 (0 : Fin 1) (0 : Fin 1) k) fun ax => ?_).trans
    (broadcastInDim_apply _ h1 v (ix3 (0 : Fin 1) (0 : Fin 1) k) (ix1 k) fun ax => ?_)
  · match ax with
    | ⟨0, _⟩ => show 0 = if (1 : ℕ) = 1 then 0 else r.val; rw [if_pos rfl]
    | ⟨1, _⟩ => show 0 = if (1 : ℕ) = 1 then 0 else s.val; rw [if_pos rfl]
    | ⟨2, _⟩ =>
      show k.val = if n = 1 then 0 else k.val
      split
      · have := k.isLt; omega
      · rfl
  · match ax with
    | ⟨0, _⟩ =>
      show k.val = if n = 1 then 0 else k.val
      split
      · have := k.isLt; omega
      · rfl

/-- A scalar (a rank-0 array) spread over any array reads its one entry everywhere. -/
theorem scalar_apply {t : Shape} (dims : Fin 0 → Fin t.rank) (v : (⟨0, ![]⟩ : Shape).Idx → α)
    (h : (⟨0, ![]⟩ : Shape).BroadcastsInDim t dims) (i : t.Idx) :
    broadcastInDim t dims h v i = v ix0 :=
  broadcastInDim_apply dims h v i ix0 fun ax => ax.elim0

/-- Slab `l` sliced out of `[L, a, b]` and reshaped to a matrix reads, at `(k, g)`, the array at `(l, k, g)`. -/
theorem slab3_apply {L a b : ℕ} (x : (⟨3, ![L, a, b]⟩ : Shape).Idx → α) (l : ℕ) (hl : l < L)
    (hs : (⟨3, ![L, a, b]⟩ : Shape).Slices ![l, 0, 0] ⟨3, ![1, a, b]⟩)
    (h : (⟨3, ![1, a, b]⟩ : Shape).ShapeCasts ⟨2, ![a, b]⟩) (k : Fin a) (g : Fin b) :
    shapeCast ⟨2, ![a, b]⟩ (extractStridedSlice ⟨3, ![1, a, b]⟩ ![l, 0, 0] x hs) h (ix2 k g) = x (ix3 ⟨l, hl⟩ k g) := by
  refine (shapeCast_1ab_ab_apply _ h k g).trans
    (extractStridedSlice_apply ![l, 0, 0] x hs (ix3 (0 : Fin 1) k g) (ix3 ⟨l, hl⟩ k g) fun ax => ?_)
  match ax with
  | ⟨0, _⟩ => show l = l + 0; rfl
  | ⟨1, _⟩ => show k.val = 0 + k.val; omega
  | ⟨2, _⟩ => show g.val = 0 + g.val; omega

/-- Row `l` sliced out of `[L, n]` and reshaped to a vector reads, at `k`, the array at `(l, k)`. -/
theorem slab2_apply {L n : ℕ} (x : (⟨2, ![L, n]⟩ : Shape).Idx → α) (l : ℕ) (hl : l < L)
    (hs : (⟨2, ![L, n]⟩ : Shape).Slices ![l, 0] ⟨2, ![1, n]⟩)
    (h : (⟨2, ![1, n]⟩ : Shape).ShapeCasts ⟨1, ![n]⟩) (k : Fin n) :
    shapeCast ⟨1, ![n]⟩ (extractStridedSlice ⟨2, ![1, n]⟩ ![l, 0] x hs) h (ix1 k) = x (ix2 ⟨l, hl⟩ k) := by
  refine (shapeCast_1a_a_apply _ h k).trans
    (extractStridedSlice_apply ![l, 0] x hs (ix2 (0 : Fin 1) k) (ix2 ⟨l, hl⟩ k) fun ax => ?_)
  match ax with
  | ⟨0, _⟩ => show l = l + 0; rfl
  | ⟨1, _⟩ => show k.val = 0 + k.val; omega

end Cert.HostLayout
-- ==== Proof.RefValue.lean ====
/-
  The reference's term is the specification, entry by entry, on the extended reals.

  Each host operation of `refOut` is read at coordinates `(r, j)` (row, channel): a slab of `W` at `(k, j)` is `W` at
  `(l, k, j)`; a matrix product at `(r, j)` is the sum over `k` of the products; a vector laid along the rows reads its
  entry `j`; a column laid along the channels reads its entry `r`; a row sum is the sum over the 128 channels (from the
  zero word, which is the extended real zero); the host quotient and inverse square root are the ideal ones. In the
  variance function the integer zero made a float is zero, so the divisor is the channel count itself, which is the
  real 128 and positive, so the guarded select keeps the quotient. Hence the centred, scaled, shifted and clipped row
  is `normRelu` of the projected row, which is the specification; and the run's result buffer holds it.
-/
import proofs.«147673_j49864570306621_1_alg».proof.Proof.RefTerm
import proofs.«147673_j49864570306621_1_alg».proof.Proof.Spec
import proofs.«147673_j49864570306621_1_alg».proof.Proof.LibRowBlockMatmul
import proofs.«147673_j49864570306621_1_alg».proof.Proof.LibHostLayout
import Idealize.ShloMosaic.Lib.IdealHost
import Idealize.ShloMosaic.Lib.Pipeline.Value
import Idealize.ShloMosaic.Lib.ValueLayout

noncomputable section

namespace Cert.ReferenceIdeal.HostValue

open Cert.ReferenceIdeal Cert.ReferenceIdeal.Gen Cert.ReferenceIdeal.HostRun Cert.ReferenceIdeal.HostTerm
open Idealize.ShloMosaic Idealize.ShloMosaic.ValueIdx Idealize.ShloMosaic.TcCoe Idealize.SL.Sem Idealize.ShloMosaic.StableHlo
open Cert.ChebNorm (chans tiny proj rowMean rowVar normRelu)

/-! ## The channel count -/

/-- The word both programs divide by denotes the real 128. -/
theorem chans_eq : chans = ((128 : ℝ) : EReal) := by
  simp [chans, Ideal.ofBits, Ideal.ieee, -EReal.coe_mul]; norm_num

/-- It is positive. -/
theorem chans_pos : (0 : EReal) < chans := by
  rw [chans_eq]; exact_mod_cast (by norm_num : (0 : ℝ) < 128)

/-! ## The layout operations at coordinates -/

theorem slab0_apply (W : Stack Ideal) (k j : Fin 128) : slab0 (F := Ideal) W (ix2 k j) = W (ix3 (0 : Fin 3) k j) := by
  unfold slab0
  exact Cert.HostLayout.slab3_apply W 0 (by decide) _ _ k j

theorem slab1_apply (W : Stack Ideal) (k j : Fin 128) : slab1 (F := Ideal) W (ix2 k j) = W (ix3 (1 : Fin 3) k j) := by
  unfold slab1
  exact Cert.HostLayout.slab3_apply W 1 (by decide) _ _ k j

theorem slab2_apply (W : Stack Ideal) (k j : Fin 128) : slab2 (F := Ideal) W (ix2 k j) = W (ix3 (2 : Fin 3) k j) := by
  unfold slab2
  exact Cert.HostLayout.slab3_apply W 2 (by decide) _ _ k j

/-- A product of a feature matrix with a 128 × 128 matrix, at `(r, j)`. -/
theorem dotW_apply (h : Mat Ideal) (w : Slab Ideal) (r : Fin 40000) (j : Fin 128) :
    dotW (F := Ideal) h w (ix2 r j) = ∑ k : Fin 128, (h (ix2 r k) : EReal) * w (ix2 k j) := by
  unfold dotW
  exact Cert.RowBlockMatmul.plainDot_apply .single h w r j

/-- A per-channel vector laid along every row reads its entry `j`. -/
theorem rows_apply (v : PerChan Ideal) (r : Fin 40000) (j : Fin 128) : rows (F := Ideal) v (ix2 r j) = v (ix1 j) := by
  unfold rows
  refine (broadcastInDim_apply _ bcast_S1x128_S40000x128_0_1 _ (ix2 r j) (ix2 (0 : Fin 1) j) fun ax => ?_).trans
    (broadcastInDim_apply _ bcast_S128_S1x128_1 v (ix2 (0 : Fin 1) j) (ix1 j) fun ax => ?_)
  · match ax with
    | ⟨0, _⟩ => show 0 = if (1 : ℕ) = 1 then 0 else r.val; rw [if_pos rfl]
    | ⟨1, _⟩ => show j.val = if (128 : ℕ) = 1 then 0 else j.val; rw [if_neg (by decide)]
  · match ax with
    | ⟨0, _⟩ => show j.val = if (128 : ℕ) = 1 then 0 else j.val; rw [if_neg (by decide)]

/-- A column laid along the channels reads its entry `r`. -/
theorem spread_apply (c : Col Ideal) (r : Fin 40000) (j : Fin 128) : spread (F := Ideal) c (ix2 r j) = c (ix2 r (0 : Fin 1)) := by
  unfold spread
  refine broadcastInDim_apply _ bcast_S40000x1_S40000x128_0_1 c (ix2 r j) (ix2 r (0 : Fin 1)) fun ax => ?_
  match ax with
  | ⟨0, _⟩ => show r.val = if (40000 : ℕ) = 1 then 0 else r.val; rw [if_neg (by decide)]
  | ⟨1, _⟩ => show 0 = if (1 : ℕ) = 1 then 0 else j.val; rw [if_pos rfl]

/-- One float per row as a column reads its entry `r`. -/
theorem col_apply (s : PerRow Ideal) (r : Fin 40000) : col (F := Ideal) s (ix2 r (0 : Fin 1)) = s (ix1 r) := by
  unfold col
  refine broadcastInDim_apply _ bcast_S40000_S40000x1_0 s (ix2 r (0 : Fin 1)) (ix1 r) fun ax => ?_
  match ax with
  | ⟨0, _⟩ => show r.val = if (40000 : ℕ) = 1 then 0 else r.val; rw [if_neg (by decide)]

/-- One float laid down a column reads that float. -/
theorem scalarCol_apply (s : One Ideal) (i : S40000x1.Idx) : scalarCol (F := Ideal) s i = s ix0 := by
  unfold scalarCol
  exact broadcastInDim_scalar_apply bcast_S_S40000x1 s i

/-- A row's sum is the sum over its 128 channels. -/
theorem rowSum_apply (y : Mat Ideal) (r : Fin 40000) : rowSum (F := Ideal) y (ix1 r) = ∑ k : Fin 128, (y (ix2 r k) : EReal) := by
  have hred : S40000x128.Reduces [1] S40000 := by decide
  unfold rowSum
  show Ideal.hostReduceAdd reducesTo_S40000x128_S40000_d1 y (Ideal.ofBits .f32 0x00000000#32) (ix1 r) = _
  rw [Ideal.hostReduceAdd_single reducesTo_S40000x128_S40000_d1 hred, Ideal.ofBits_zero_f32, zero_add]
  exact Finset.sum_congr rfl fun k _ => congrArg y (funext fun a => Fin.ext (by
    match a with
    | ⟨0, _⟩ => rfl
    | ⟨1, _⟩ => rfl))

/-! ## The row statistics -/

/-- A row's mean. -/
theorem meanCol_apply (y : Mat Ideal) (r : Fin 40000) :
    meanCol (F := Ideal) y (ix2 r (0 : Fin 1)) = rowMean fun k => y (ix2 r k) := by
  unfold meanCol rowMean
  show Ideal.div (col (F := Ideal) (rowSum (F := Ideal) y) (ix2 r (0 : Fin 1))) (scalarCol (F := Ideal) (constant (F := Ideal) S_ .f32 0x43000000#32) (ix2 r (0 : Fin 1))) = _
  rw [col_apply, rowSum_apply, scalarCol_apply]
  rfl

/-- The variance's divisor is the channel count: the correction is the integer zero made a float, which is zero. -/
theorem count_val : (HostTerm.count (F := Ideal)) ix0 = chans := by
  unfold HostTerm.count
  show chans - (((0#32 : BitVec 32).toInt : ℝ) : EReal) = chans
  simp

/-- The divisor is positive, so the guard of the variance's select is set. -/
theorem count_guard : cmpf .ogt (HostTerm.count (F := Ideal)) (constant (F := Ideal) S_ .f32 0x00000000#32) ix0 = 1#1 := by
  show Ideal.cmp .ogt ((HostTerm.count (F := Ideal)) ix0) (Ideal.ofBits .f32 0x00000000#32) = 1#1
  rw [count_val, Ideal.ofBits_zero_f32]
  unfold Ideal.cmp
  simp only [decide_eq_true chans_pos]
  rfl

/-! ## The pointwise operations at an entry (each by definition) -/

theorem matSub_apply (a b : Mat Ideal) (i : S40000x128.Idx) : subf (F := Ideal) (φ := .f32) a b i = (a i : EReal) - b i := rfl
theorem matMul_apply (a b : Mat Ideal) (i : S40000x128.Idx) : mulf (F := Ideal) (φ := .f32) a b i = (a i : EReal) * b i := rfl
theorem matAdd_apply (a b : Mat Ideal) (i : S40000x128.Idx) : addf (F := Ideal) (φ := .f32) a b i = (a i : EReal) + b i := rfl
theorem matMax_apply (a b : Mat Ideal) (i : S40000x128.Idx) : maximumf (F := Ideal) (φ := .f32) a b i = max (a i : EReal) (b i) := rfl
theorem colAdd_apply (a b : Col Ideal) (i : S40000x1.Idx) : addf (F := Ideal) (φ := .f32) a b i = (a i : EReal) + b i := rfl
theorem colDiv_apply (a b : Col Ideal) (i : S40000x1.Idx) : Host.divf (F := Ideal) (φ := .f32) a b i = Ideal.div (a i) (b i) := rfl
theorem colRsqrt_apply (a : Col Ideal) (i : S40000x1.Idx) : Host.rsqrt (F := Ideal) (φ := .f32) a i = Ideal.rsqrt (a i) := rfl
theorem colSelect_apply (c : (⟨S40000x1, .i1⟩ : BufTy).Contents (Elt Ideal)) (a b : Col Ideal) (i : S40000x1.Idx) :
    select c a b i = Scalar.select (c i) (a i) (b i) := rfl

/-- A row's variance as the variance function spells it is its mean squared deviation. -/
theorem varCol_apply (y : Mat Ideal) (r : Fin 40000) :
    varCol (F := Ideal) y (ix2 r (0 : Fin 1)) = rowVar fun k => y (ix2 r k) := by
  unfold varCol rowVar
  rw [colSelect_apply, broadcastInDim_scalar_apply, count_guard, select_one, colDiv_apply, col_apply, rowSum_apply,
    scalarCol_apply, count_val]
  refine congrArg (Ideal.div · chans) (Finset.sum_congr rfl fun k _ => ?_)
  rw [matMul_apply, matSub_apply, spread_apply, meanCol_apply]

/-! ## The normalised row and the projection -/

/-- The centred, scaled, shifted and clipped rows at `(r, j)`: `normRelu` of row `r`. -/
theorem normed_apply (y : Mat Ideal) (g be : PerChan Ideal) (r : Fin 40000) (j : Fin 128) :
    normed (F := Ideal) y g be (ix2 r j) = normRelu (fun k => y (ix2 r k)) (fun k => g (ix1 k)) (fun k => be (ix1 k)) j := by
  unfold normed normRelu
  rw [matMax_apply, matAdd_apply, matMul_apply, matMul_apply, matSub_apply, spread_apply, spread_apply, colRsqrt_apply,
    colAdd_apply, meanCol_apply, varCol_apply, scalarCol_apply, rows_apply, rows_apply, broadcastInDim_scalar_apply]
  show max _ (Ideal.ofBits .f32 0x00000000#32) = _
  rw [Ideal.ofBits_zero_f32]
  rfl

/-- The three projections summed plus the bias, at `(r, j)`. -/
theorem projSum_apply (x t1 t2 : Mat Ideal) (W : Stack Ideal) (b : PerChan Ideal) (r : Fin 40000) (j : Fin 128) :
    projSum (F := Ideal) x t1 t2 W b (ix2 r j) = proj x t1 t2 W b r j := by
  unfold projSum proj
  show (((dotW (F := Ideal) x (slab0 (F := Ideal) W) (ix2 r j) : EReal) + dotW (F := Ideal) t1 (slab1 (F := Ideal) W) (ix2 r j)) + dotW (F := Ideal) t2 (slab2 (F := Ideal) W) (ix2 r j))
      + rows (F := Ideal) b (ix2 r j) = _
  rw [dotW_apply, dotW_apply, dotW_apply, rows_apply]
  simp only [slab0_apply, slab1_apply, slab2_apply]

/-- The reference's term is the specification. -/
theorem refOut_eq (x t1 t2 : Mat Ideal) (W : Stack Ideal) (b g be : PerChan Ideal) :
    refOut (F := Ideal) x t1 t2 W b g be = Cert.ChebNorm.out x t1 t2 W b g be := by
  funext i
  obtain ⟨r, j, rfl⟩ : ∃ (r : Fin 40000) (j : Fin 128), i = ix2 r j := ⟨i 0, i 1, eq_ix2 i⟩
  rw [Cert.ChebNorm.out_apply]
  unfold refOut
  rw [normed_apply]
  exact congrArg (fun a => normRelu a (fun k => g (ix1 k)) (fun k => be (ix1 k)) j)
    (funext fun k => projSum_apply x t1 t2 W b r k)

/-! ## The run -/

/-- On every device, from any memory with zero counters: every weakly fair execution of the reference terminates with
    the result buffer at the specification of the arguments' contents and the chain's two terms of them, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v96)
        = Cert.ChebNorm.out (m ((c.tc : Thread nD τ).loc main_arg0))
            (Cert.KernelIdeal.Laplacian.term1 (F := Ideal) (m ((c.tc : Thread nD τ).loc main_arg0)) (m ((c.tc : Thread nD τ).loc main_arg1)) (m ((c.tc : Thread nD τ).loc main_arg6)))
            (Cert.KernelIdeal.Laplacian.term2 (F := Ideal) (m ((c.tc : Thread nD τ).loc main_arg0)) (m ((c.tc : Thread nD τ).loc main_arg1)) (m ((c.tc : Thread nD τ).loc main_arg6)))
            (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v96).trans ((out_eq (launchContents m c)).trans (refOut_eq _ _ _ _ _ _ _)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_main m ρ)

end Cert.ReferenceIdeal.HostValue

end
-- ==== Proof.lean ====
/-
  A three-hop Chebyshev graph convolution with bias, layer normalisation over the 128 channels and a clip at zero,
  computed two ways, is one function on the extended reals.

  The kernel's program computes the two further Chebyshev terms `L x` and `2·L(L x) - x` with host operations and
  hands them, with the node features, to one tiled region: ten blocks of 4000 rows, each projected by the three
  128×128 weight slabs, summed with the bias, normalised row by row, scaled, shifted and clipped. The reference
  does everything with host operations on the whole 40000-row arrays. Both spell the Chebyshev terms with the same
  operations, so that chain is carried as two opaque functions of the inputs (Laplacian.lean); after it, every row
  of the result depends on the same row of the three feature matrices only and is the same expression tree on both
  sides — the sum of three 128-term products plus the bias, its row mean, its mean squared deviation, the inverse
  square root, the scale, the shift, the maximum with zero — so the two results agree entry by entry (Spec.lean's
  `out`), whatever extended reals the inputs hold: no finiteness of the inputs is used. The word-level program is
  read at its own instance only for its frame; the ideal pass rewrote nothing, so the preservation claim is trivial.
-/
import proofs.«147673_j49864570306621_1_alg».proof.Defs
import proofs.«147673_j49864570306621_1_alg».proof.Proof.Gen.Kernel
import proofs.«147673_j49864570306621_1_alg».proof.Proof.Gen.Kernel.Skeleton
import proofs.«147673_j49864570306621_1_alg».proof.Proof.Gen.Kernel.Launch
import proofs.«147673_j49864570306621_1_alg».proof.Proof.Gen.Kernel.Points
import proofs.«147673_j49864570306621_1_alg».proof.Proof.Gen.Kernel.Frame
import proofs.«147673_j49864570306621_1_alg».proof.Proof.Gen.KernelIdeal
import proofs.«147673_j49864570306621_1_alg».proof.Proof.Gen.KernelIdeal.Skeleton
import proofs.«147673_j49864570306621_1_alg».proof.Proof.Gen.KernelIdeal.Launch
import proofs.«147673_j49864570306621_1_alg».proof.Proof.Gen.KernelIdeal.Points
import proofs.«147673_j49864570306621_1_alg».proof.Proof.Gen.KernelIdeal.Frame
import proofs.«147673_j49864570306621_1_alg».proof.Proof.Gen.KernelIdeal.Value
import proofs.«147673_j49864570306621_1_alg».proof.Proof.Gen.ReferenceIdeal
import proofs.«147673_j49864570306621_1_alg».proof.Proof.Gen.Pre_finite_inputs
import proofs.«147673_j49864570306621_1_alg».proof.Proof.KernelValue
import proofs.«147673_j49864570306621_1_alg».proof.Proof.RefValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.HostValue.run m ρ)

/-- The ideal pass rewrote no operation. -/
theorem preserves : Cert.preserves_Kernel_KernelIdeal := trivial

/-- From memories that agree on the seven arguments both programs end with the result at the same function of
    them. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
